-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) (main_arg2 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  main_v13
-- ==== Kernel.lean ====
abbrev S8x4096x256 : Shape := ⟨3, ![8, 4096, 256]⟩
abbrev S8x256x256 : Shape := ⟨3, ![8, 256, 256]⟩
abbrev S1x1024x256 : Shape := ⟨3, ![1, 1024, 256]⟩
abbrev S1x256x256 : Shape := ⟨3, ![1, 256, 256]⟩
abbrev S256x256 : Shape := ⟨2, ![256, 256]⟩
abbrev S1024x256 : Shape := ⟨2, ![1024, 256]⟩

abbrev nBuf : Space → Nat
  | .hbm => 5
  | .vmem => 13
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S1x1024x256, .f32⟩
  | .local _ .vmem, ⟨8, _⟩ => ⟨S1x1024x256, .f32⟩
  | .local _ .vmem, ⟨9, _⟩ => ⟨S1x256x256, .f32⟩
  | .local _ .vmem, ⟨10, _⟩ => ⟨S1x256x256, .f32⟩
  | .local _ .vmem, ⟨11, _⟩ => ⟨S1x1024x256, .f32⟩
  | .local _ .vmem, ⟨12, _⟩ => ⟨S1x1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S1024x256_S1x1024x256 : S1024x256.ShapeCasts S1x1024x256
  dot_S1024x256_S1024x256_S256x256_0_0_1_1_n_n_wf : DotDims.WF S1024x256 S1024x256 S256x256 [0] [0] [1] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x4096x256.size a
  hwx0_1 : ∀ i : grid0.Coords, EltTy.bits .f32 = 32 ∨ (Rect.block (s := S8x4096x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .f32 = 32 ∨ (Rect.block (s := S8x4096x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S8x256x256.size a
  hwx1_1 : ∀ i : grid1.Coords, EltTy.bits .f32 = 32 ∨ (Rect.block (s := S8x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S8x4096x256.size a
  hwx1_2 : ∀ i : grid1.Coords, EltTy.bits .f32 = 32 ∨ (Rect.block (s := S8x4096x256) S1x1024x256.size (cc1_transform_2 i) (hinb1_2 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S_ : Shape := ⟨0, ![]⟩
abbrev S8x256x256 : Shape := ⟨3, ![8, 256, 256]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S_, .f32⟩
  | .hbm, ⟨4, _⟩ => ⟨S8x4096x256, .f32⟩
  | .hbm, ⟨5, _⟩ => ⟨S8x4096x256, .f32⟩
  | .hbm, ⟨6, _⟩ => ⟨S_, .f32⟩
  | .hbm, ⟨7, _⟩ => ⟨S8x4096x256, .f32⟩
  | .hbm, ⟨8, _⟩ => ⟨S8x4096x256, .f32⟩
  | .hbm, ⟨9, _⟩ => ⟨S_, .f32⟩
  | .hbm, ⟨10, _⟩ => ⟨S8x4096x256, .f32⟩
  | .hbm, ⟨11, _⟩ => ⟨S8x4096x256, .f32⟩
  | .hbm, ⟨12, _⟩ => ⟨S_, .f32⟩
  | .hbm, ⟨13, _⟩ => ⟨S8x4096x256, .f32⟩
  | .hbm, ⟨14, _⟩ => ⟨S8x4096x256, .f32⟩
  | .hbm, ⟨15, _⟩ => ⟨S8x256x256, .f32⟩
  | .hbm, ⟨16, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S8x4096x256 : S_.BroadcastsInDim S8x4096x256 (![] : Fin 0 → Fin S8x4096x256.rank)
  dot_S8x4096x256_S8x4096x256_S8x256x256_1_1_2_2_0_0_wf : DotDims.WF S8x4096x256 S8x4096x256 S8x256x256 [1] [1] [2] [2] [0] [0]
  dot_S8x4096x256_S8x256x256_S8x4096x256_2_1_1_2_0_0_wf : DotDims.WF S8x4096x256 S8x256x256 S8x4096x256 [2] [1] [1] [2] [0] [0]

variable [Facts₀]

def dot_S8x4096x256_S8x4096x256_S8x256x256_1_1_2_2_0_0 : DotDims S8x4096x256 S8x4096x256 S8x256x256 where
  lhsContracting := [1]
  rhsContracting := [1]
  lhsNonContracting := [2]
  rhsNonContracting := [2]
  lhsBatch := [0]
  rhsBatch := [0]
  wf := dot_S8x4096x256_S8x4096x256_S8x256x256_1_1_2_2_0_0_wf
def dot_S8x4096x256_S8x256x256_S8x4096x256_2_1_1_2_0_0 : DotDims S8x4096x256 S8x256x256 S8x4096x256 where
  lhsContracting := [2]
  rhsContracting := [1]
  lhsNonContracting := [1]
  rhsNonContracting := [2]
  lhsBatch := [0]
  rhsBatch := [0]
  wf := dot_S8x4096x256_S8x256x256_S8x4096x256_2_1_1_2_0_0_wf

class Facts : Prop extends Facts₀ where

variable [Facts]
-- ==== Proof.K.Cases.lean ====
/-
  The summary kernel's grid is 8 batches × 4 position tiles, walked with the tile index fastest: point t is batch
  t / 4, tile t % 4. Its body branches twice on the tile index: the accumulator is zeroed first at tile 0, and is
  copied into the output block after tile 3. So a point is in one of three cases —
    first  (tile 0):      zero, then add this tile's product;
    middle (tiles 1, 2):  add this tile's product;
    last   (tile 3):      add this tile's product, then copy the accumulator out —
  and the output window is idle (nothing stored, nothing written back) in the first two.
  Here: the two conditions in closed form over the grid, the idle table read at each case, the staging memrefs
  and the accumulator as the body is called with them, and the region's invariant with the accumulator named.
-/
import proofs.«120352_j20598663151742_1_alg».proof.Proof.Gen.Kernel.Launch
import proofs.«120352_j20598663151742_1_alg».proof.Proof.Gen.Kernel.Skeleton
import proofs.«120352_j20598663151742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- "this is tile 0": the accumulator is zeroed first. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "this is tile 3": the accumulator is copied into the output block. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem idle0_2_first : ∀ t : Fin cfg0.N, condFirst (grid0.coords t) → ¬condLast (grid0.coords t) → cfg0.idle 2 (grid0.coords t) = true := by decide +kernel
theorem noFlush0_2_first : ∀ t : Fin cfg0.N, condFirst (grid0.coords t) → ¬condLast (grid0.coords t) → (cfg0.win 2).flush t = false := by decide +kernel
theorem idle0_2_mid : ∀ t : Fin cfg0.N, ¬condFirst (grid0.coords t) → ¬condLast (grid0.coords t) → cfg0.idle 2 (grid0.coords t) = true := by decide +kernel
theorem noFlush0_2_mid : ∀ t : Fin cfg0.N, ¬condFirst (grid0.coords t) → ¬condLast (grid0.coords t) → (cfg0.win 2).flush t = false := by decide +kernel
theorem live0_2_last : ∀ t : Fin cfg0.N, ¬condFirst (grid0.coords t) → condLast (grid0.coords t) → cfg0.idle 2 (grid0.coords t) = false := by decide +kernel

/-! ## The memrefs the body is called with -/

/-- One staging buffer of the output window, through which its contents are stated. -/
abbrev VO0_2 : View sig .tc .vmem S1x256x256 .f32 := (Memref.whole cc0_stg2_0 : Memref sig .tc .vmem S1x256x256 .f32).view
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S256x256 .f32 := Memref.whole cc0_scratch0
abbrev VAcc : View sig .tc .vmem S256x256 .f32 := accM.view

/-! ## The scoped buffers the summary kernel never touches -/

/-- The second kernel's six staging buffers, each whole at some contents: they ride through the first region. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's class invariant holds: the accumulator at some contents, those six, the generator register. -/
theorem PhiA0_eq (c : Dev nD) :
    (Pipeline.ΦA spec0 c : sProp 𝕄)
      = iprop(iprop((∃ d, owns (c : Thread nD τ) accM fullShare d) ∗ otherStaging c) ∗ (∃ r, prngReg c r)) := by
  unfold Pipeline.ΦA otherStaging; rw [scopedRest0_eq]; simp only [accM, owns_whole]; try rfl

end Cert.Kernel.Hand

end
-- ==== Proof.K.RunFirst.lean ====
/-
  The summary kernel's body at a FIRST tile of a batch: the accumulator, whatever it held, is overwritten with
  zero and then with zero plus this tile's product φ(K-tile)ᵀ · V-tile; the output block is not touched.
  The body's triple on whole staging memrefs, the stores' pieces found by running it.
-/
import proofs.«120352_j20598663151742_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the accumulator (last first) at a first tile, with the proof that from
    the two input blocks at `x0`, `x1`, the output buffer at any contents `xi2` (handed back untouched) and the
    accumulator at anything, the body runs to the continuation holding the inputs and the output buffer as they
    were and the accumulator with those pieces written. -/
noncomputable def runFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i)
    (x0 : Vec F S1x1024x256 .f32) (x1 : Vec F S1x1024x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunMid.lean ====
/-
  The summary kernel's body at a MIDDLE tile of a batch: the accumulator, holding what the tile before left,
  gets this tile's product φ(K-tile)ᵀ · V-tile added; the output block is not touched.
-/
import proofs.«120352_j20598663151742_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's store leaves in the accumulator at a middle tile, with the proof that from the two input
    blocks at `x0`, `x1`, the output buffer at any contents `xi2` (handed back untouched) and the accumulator at
    `xs`, the body runs to the continuation holding the inputs and the output buffer as they were and the
    accumulator with those pieces written. -/
noncomputable def runMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i)
    (x0 : Vec F S1x1024x256 .f32) (x1 : Vec F S1x1024x256 .f32) (xs : Vec F S256x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunLast.lean ====
/-
  The summary kernel's body at the LAST tile of a batch: the accumulator, holding what the tile before left, gets
  this tile's product added, and the sum is then copied whole into the output block.
-/
import proofs.«120352_j20598663151742_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer and in the accumulator at a last tile, with the proof
    that from the two input blocks at `x0`, `x1`, the output buffer at anything and the accumulator at `xs`, the
    body runs to the continuation holding the inputs as they were and both buffers with their pieces written. -/
noncomputable def runLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i)
    (x0 : Vec F S1x1024x256 .f32) (x1 : Vec F S1x1024x256 .f32) (xs : Vec F S256x256 .f32) :
    Σ' (L2 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.SummaryRegion.lean ====
/-
  The summary region (the first kernel: per batch, the 256 × 256 matrix Σ_s φ(K[s, ·])ᵀ V[s, ·], accumulated over
  four tiles of 1024 positions), entered with the core's buffers at contents `V`.
  What the accumulator holds after each grid point is a recursion on the point: at a first tile the body's result
  from this tile's two blocks alone, at a later tile its result from the blocks and what the point before left.
  The output block is stored only at a last tile, from the accumulator. The region's invariant names the
  accumulator's contents between points; the body obligation is then the case's run at each point.
-/
import proofs.«120352_j20598663151742_1_alg».proof.Proof.K.RunFirst
import proofs.«120352_j20598663151742_1_alg».proof.Proof.K.RunMid
import proofs.«120352_j20598663151742_1_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves -/

/-- A first tile stores nothing into the output block: a placeholder nothing consults. -/
def outFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) : Vec F S1x256x256 .f32 :=
  VO0_2.read (Elt F) (VO0_2.writes (Elt F) VO0_2.junk (runFirst c i arg2 harg2 arg3 harg3 arg4 harg4 arg5 harg5 hc0 hc1 x0 x1).1)
theorem accCoverFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) (y : S256x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x256.size (by sl_kernel_rfl) y
/-- What a first tile leaves in the accumulator. -/
def accFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) : Vec F S256x256 .f32 :=
  VAcc.read (Elt F) (VAcc.writes (Elt F) VAcc.junk (runFirst c i arg2 harg2 arg3 harg3 arg4 harg4 arg5 harg5 hc0 hc1 x0 x1).2.1)

/-- A middle tile stores nothing into the output block either. -/
def outMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) : Vec F S1x256x256 .f32 :=
  VO0_2.read (Elt F) (VO0_2.writes (Elt F) VO0_2.junk (runMid c i arg2 harg2 arg3 harg3 arg4 harg4 arg5 harg5 hc0 hc1 x0 x1 xs).1)
theorem accCoverMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) (y : S256x256.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x256.size (by sl_kernel_rfl) y
/-- What a middle tile leaves in the accumulator, given what the tile before left. -/
def accMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) : Vec F S256x256 .f32 :=
  VAcc.read (Elt F) (VAcc.writes (Elt F) VAcc.junk (runMid c i arg2 harg2 arg3 harg3 arg4 harg4 arg5 harg5 hc0 hc1 x0 x1 xs).2.1)

theorem outCoverLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) (y : S1x256x256.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x256.size (by sl_kernel_rfl) y
/-- What the last tile leaves in the output block. -/
def outLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) : Vec F S1x256x256 .f32 :=
  VO0_2.read (Elt F) (VO0_2.writes (Elt F) VO0_2.junk (runLast c i arg2 harg2 arg3 harg3 arg4 harg4 arg5 harg5 hc0 hc1 x0 x1 xs).1)
theorem accCoverLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) (y : S256x256.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x256.size (by sl_kernel_rfl) y
/-- What the last tile leaves in the accumulator. -/
def accLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) : Vec F S256x256 .f32 :=
  VAcc.read (Elt F) (VAcc.writes (Elt F) VAcc.junk (runLast c i arg2 harg2 arg3 harg3 arg4 harg4 arg5 harg5 hc0 hc1 x0 x1 xs).2.1)

section Region
variable (V : (c : Dev nD) → (b : Ref sig .tc) → Buf (Elt F) ((c : Thread nD τ).loc b))

/-! ## Point by point -/

/-- What the output block's staging buffer and the accumulator hold after the body at position `n`: the case the
    closed forms select there, run at the point's memrefs and input blocks, the accumulator at what the point
    before left. -/
def outsAt0 (c : Dev nD) : (n : ℕ) → n < cfg0.N → Vec F S1x256x256 .f32 × Vec F S256x256 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩), accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩), accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩))
    else
      if h1 : (n + 1) % 4 = 3 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2, accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2)
      else
        (outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (outFirst c (grid0.coords t) (ms0_0 t) (hs0_0 t) (ms0_1 t) (hs0_1 t) (ms0_2 t) (hs0_2 t) accM (Memref.isWhole_whole _) ((hcondFirst t).mpr h0) (fun h => h1 ((hcondLast t).mp h)) (iblk0 V c 0 t) (iblk0 V c 1 t), accFirst c (grid0.coords t) (ms0_0 t) (hs0_0 t) (ms0_1 t) (hs0_1 t) (ms0_2 t) (hs0_2 t) accM (Memref.isWhole_whole _) ((hcondFirst t).mpr h0) (fun h => h1 ((hcondLast t).mp h)) (iblk0 V c 0 t) (iblk0 V c 1 t)) := by
  obtain ⟨n, hn⟩ := t
  cases n with
  | zero => exact rfl
  | succ n => exact (dif_pos h0).trans ((dif_neg h1).trans rfl)

theorem outsAt0_mid (c : Dev nD) (t : Fin cfg0.N) (h0 : ¬t.val % 4 = 0) (h1 : ¬t.val % 4 = 3) :
    outsAt0 V c t.val t.isLt = (outMid c (grid0.coords t) (ms0_0 t) (hs0_0 t) (ms0_1 t) (hs0_1 t) (ms0_2 t) (hs0_2 t) accM (Memref.isWhole_whole _) (fun h => h0 ((hcondFirst t).mp h)) (fun h => h1 ((hcondLast t).mp h)) (iblk0 V c 0 t) (iblk0 V c 1 t) (outsAt0 V c (t.val - 1) (Nat.lt_of_le_of_lt (Nat.sub_le _ _) t.isLt)).2, accMid c (grid0.coords t) (ms0_0 t) (hs0_0 t) (ms0_1 t) (hs0_1 t) (ms0_2 t) (hs0_2 t) accM (Memref.isWhole_whole _) (fun h => h0 ((hcondFirst t).mp h)) (fun h => h1 ((hcondLast t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outLast c (grid0.coords t) (ms0_0 t) (hs0_0 t) (ms0_1 t) (hs0_1 t) (ms0_2 t) (hs0_2 t) accM (Memref.isWhole_whole _) (fun h => h0 ((hcondFirst t).mp h)) ((hcondLast t).mpr h1) (iblk0 V c 0 t) (iblk0 V c 1 t) (outsAt0 V c (t.val - 1) (Nat.lt_of_le_of_lt (Nat.sub_le _ _) t.isLt)).2, accLast c (grid0.coords t) (ms0_0 t) (hs0_0 t) (ms0_1 t) (hs0_1 t) (ms0_2 t) (hs0_2 t) accM (Memref.isWhole_whole _) (fun h => h0 ((hcondFirst t).mp h)) ((hcondLast t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class's invariant (the accumulator at anything); afterwards
    the accumulator at what the point before left, the second kernel's staging buffers at anything, the generator
    register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherStaging c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ otherStaging c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ otherStaging c) ∗ (∃ r, prngReg c r)) := by
  cases n with
  | zero => exact absurd rfl hz
  | succ n => rfl

/-! ## The proof data -/

/-- The summary region's proof data on core `c`: the arrays as the region finds them; after the body at point `t`
    each input's buffer at its block and the output's at `outsAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' memrefs hold their blocks; the closed forms say which case the point is in;
    the invariant hands the body the accumulator at what the point before left (at anything at the very first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have h1 : ¬t.val % 4 = 3 := by omega
    rw [Dat.leavesExact_idle (dat0 V c) 2 t (idle0_2_first t ((hcondFirst t).mpr h0) (fun h => h1 ((hcondLast t).mp h))) (noFlush0_2_first t ((hcondFirst t).mpr h0) (fun h => h1 ((hcondLast t).mp h)))]
    rw [outsAt0_first V c t h0 h1]
    unfold accFirst; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverFirst c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverFirst c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [live0_2_last t (fun h => h0 ((hcondFirst t).mp h)) ((hcondLast t).mpr h1)], after0_2]
      rw [outsAt0_last V c t h0 h1]
      unfold outLast accLast; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverLast c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dat0 V c) 2 t (idle0_2_mid t (fun h => h0 ((hcondFirst t).mp h)) (fun h => h1 ((hcondLast t).mp h))) (noFlush0_2_mid t (fun h => h0 ((hcondFirst t).mp h)) (fun h => h1 ((hcondLast t).mp h)))]
      rw [outsAt0_mid V c t h0 h1]
      unfold accMid; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverMid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region

end Cert.Kernel.Hand

end
-- ==== Proof.K.OutRun.lean ====
/-
  The output kernel's body: it loads a block of 1024 query rows and the batch's 256 × 256 summary, and stores
  φ(Q-block) · summary over the whole output block. What the output buffer then holds is one function of the two
  loaded blocks.
-/
import proofs.«120352_j20598663151742_1_alg».proof.Proof.Gen.Kernel.Launch
import proofs.«120352_j20598663151742_1_alg».proof.Proof.Gen.Kernel.Skeleton
import proofs.«120352_j20598663151742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole query / output block and the whole summary block, as the body's literal rectangles. -/
abbrev rRows : Rect S1x1024x256 := Rect.unit (s := S1x1024x256) ![0, 0, 0] S1x1024x256.size inb_S1x1024x256_S1x1024x256_0_0_0
abbrev rSummary : Rect S1x256x256 := Rect.unit (s := S1x256x256) ![0, 0, 0] S1x256x256.size inb_S1x256x256_S1x256x256_0_0_0

/-- The output buffer after the body, from the two input blocks: its one store, as a piece. -/
def outBlock (x0 : Vec F S1x1024x256 .f32) (x1 : Vec F S1x256x256 .f32) : Vec F S1x1024x256 .f32 :=
  View.canon [⟨rRows, k1_pay1 (View.ld x0 rRows) (View.ld x1 rSummary)⟩]

/-- The one store covers the buffer. -/
theorem outCover (p0 : Vec F S1x1024x256 .f32) (y : S1x1024x256.Idx) :
    ∃ pc ∈ ([⟨rRows, p0⟩] : List (View.Piece (Elt F) S1x1024x256 .f32)), y ∈ pc.1.set :=
  View.cover_of_tiled [⟨rRows, p0⟩] S1x1024x256.size (by rfl) y

set_option maxHeartbeats 4000000 in
/-- The body on whole staging memrefs, the inputs' at read contents `x0`, `x1` and the output's at anything, runs to
    the continuation holding the inputs' as they were and the output's at `outBlock x0 x1`. -/
theorem sound_out (c : Dev nD) (E : Set ℕ) (i : grid1.Coords) (arg2 : Memref sig .tc .vmem S1x1024x256 .f32) (harg2 : arg2.IsWhole) (arg3 : Memref sig .tc .vmem S1x256x256 .f32) (harg3 : arg3.IsWhole) (arg4 : Memref sig .tc .vmem S1x1024x256 .f32) (harg4 : arg4.IsWhole)
    (x0 : Vec F S1x1024x256 .f32) (x1 : Vec F S1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Hand

end
-- ==== Proof.K.OutRegion.lean ====
/-
  The output region (the second kernel: out-block = φ(Q-block) · summary of the block's batch), entered with the
  core's buffers at contents `V`. Every point loads its two blocks and stores the whole output block, so the
  proof data is the plain one: each input's buffer holds its block — the summary's is fetched only when the batch
  changes and kept in place in between —, the output's holds `outBlock` of the two.
-/
import proofs.«120352_j20598663151742_1_alg».proof.Proof.K.OutRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlock (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outBlock (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_out c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.TwoRegions.lean ====
/-
  The whole program: the summary region, then the output region, nothing on the host in between.
  The core's buffers at the three boundaries: as launched; after the summary region, where the summary array
  holds what that region's write-backs left and everything else is as launched; after the output region, where
  the result array holds what its write-backs left. Each region is entered from "every unscoped buffer at the
  boundary's contents, the generator register at some state, nothing owed" and left at the same at the next
  boundary. Read at the end: the result array at the second region's final contents, and the three arguments as
  launched — no region writes an argument.
-/
import proofs.«120352_j20598663151742_1_alg».proof.Proof.K.SummaryRegion
import proofs.«120352_j20598663151742_1_alg».proof.Proof.K.OutRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the summary region: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the output region. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-! ## The arguments end as launched -/

/-- The queries: read by the output region through an input window, bypassed by the summary region. -/
theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := (Wc_arr m ρ c 0).trans (((dat1 (Vb m ρ) c).arrAt_in 0 rfl _).trans (A_eq1 (Vb m ρ) c 0))
    _ = Wa m ρ c (Proc.devRef .tc main_arg0) := Wb_of_ne m ρ c main_arg0 (by decide)
    _ = m ((c : Thread nD τ).loc main_arg0) := rfl
/-- The keys: read by the summary region through an input window, bypassed by the output region. -/
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Wc_of_ne m ρ c main_arg1 (by decide)
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl
/-- The values: likewise. -/
theorem Wc_main_arg2 (c : Dev nD) : Wc m ρ c (Proc.devRef .tc main_arg2) = m ((c : Thread nD τ).loc main_arg2) :=
  calc Wc m ρ c (Proc.devRef .tc main_arg2)
    _ = Wb m ρ c (Proc.devRef .tc main_arg2) := Wc_of_ne m ρ c main_arg2 (by decide)
    _ = Wa m ρ c (Proc.devRef .tc main_arg2) := (Wb_arr m ρ c 1).trans (((dat0 (Va m ρ) c).arrAt_in 1 rfl _).trans (A_eq0 (Va m ρ) c 1))
    _ = m ((c : Thread nD τ).loc main_arg2) := rfl

/-! ## The proof data family and the thread state -/

/-- The prefetched tables' admissible contents: no pipeline has a table. -/
abbrev adm₂ : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm₂ p) c
  | ⟨0, _⟩ => fun c => dat0 (Va m ρ) c
  | ⟨1, _⟩ => fun c => dat1 (Vb m ρ) c
abbrev 𝒱₀ : Variants := Variants.none
abbrev Lz : GSem nD τ sig → Finset Unit := fun _ => ∅
abbrev lvz : GSem nD τ sig → Unit → ℕ := fun _ _ => 0
/-- What rides beside the buffers through both regions: the generator register at some state and the core's
    `owes`, at nothing. -/
abbrev Rz (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wc m ρ c) ∗ ∃ r, prngReg c r)

/-! ## The regions as segments -/

set_option backward.isDefEq.respectTransparency.types false in
/-- The summary region over the thread state: entered from every unscoped buffer at launch contents, left with the
    summary array at what its write-backs leave. -/
def reg0 : Pipeline.RegionSeg (pcfgs (F := F)) adm₂ (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ Lz lvz 0 fun _ _ => rfl
  pre c := iprop(StableHlo.held (c : Thread nD τ) (Pipeline.ucRefs τ sig) (Wa m ρ c) ∗ Rz c)
  post c := iprop(StableHlo.held (c : Thread nD τ) (Pipeline.ucRefs τ sig) (Wb m ρ c) ∗ Rz c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm₂ (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm₂ 0).1
          ∗ Pipeline.scopedRest (Pipeline.pin (pcfgs (F := F)) adm₂ 0).spec c) ⊢ (Pipeline.ΦA spec0 c : sProp 𝕄) := by
      unfold Pipeline.ΦA
      iintro ⟨Hp, -, Hr⟩
      isplitl [Hr]; · iexact Hr
      iexact Hp
    exact h.trans (hin0 (Va m ρ) c)
  hout c := by
    rw [Pipeline.ownSems0_none]
    have h : (Pipeline.ΦA spec0 c : sProp 𝕄) ⊢ iprop((∃ r, prngReg c r) ∗ emp
          ∗ Pipeline.scopedRest (Pipeline.pin (pcfgs (F := F)) adm₂ 0).spec c) := by
      unfold Pipeline.ΦA
      iintro ⟨Hr, Hp⟩
      isplitl [Hp]; · iexact Hp
      isplitr; · iempintro
      iexact Hr
    exact (hout0 (Va m ρ) c).trans h
  hexit c := by
    have hjoin := Pipeline.unscopedBufs_of_arrays (p := 0) (pcfgs (F := F)) adm₂ (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region over the thread state: entered from the buffers as the summary region left them, left with
    the result array at what its write-backs leave. -/
def reg1 : Pipeline.RegionSeg (pcfgs (F := F)) adm₂ (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ Lz lvz 1 fun _ _ => rfl
  pre c := iprop(StableHlo.held (c : Thread nD τ) (Pipeline.ucRefs τ sig) (Wb m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm₂ (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₂ (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs₂ : List (Pipeline.Seg (pcfgs (F := F)) adm₂ (pdats m ρ) () defs₀ 𝒱₀ Lz lvz) :=
  [ .region (reg0 m ρ), .region (reg1 m ρ) ]
theorem main_run (c : Dev nD) : main (F := F) c = Pipeline.Seg.run (segs₂ m ρ) := (main_chain c).trans (by chain_rfl)

set_option backward.isDefEq.respectTransparency.types false in
/-- From any memory with zero counters every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm₂ (pdats m ρ) () cellOf_inj emb₁ defs₀ 𝒱₀ Lz lvz m ρ main (segs₂ m ρ)
    (fun c Q => by rw [main_run m ρ c])
    (by simp only [segs₂, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ Rz c)) (Tₙ := Tend m ρ)
    (hch := ⟨fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun s h c => h c)

/-- The result array ends at what the output region's write-backs leave; the three arguments end as launched. -/
theorem run_result : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (Wc_arr m ρ c 2),
     (h c _ (mem_uc main_arg0 (by decide))).trans (Wc_main_arg0 m ρ c),
     (h c _ (mem_uc main_arg1 (by decide))).trans (Wc_main_arg1 m ρ c),
     (h c _ (mem_uc main_arg2 (by decide))).trans (Wc_main_arg2 m ρ c)⟩) (run_all m ρ)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.KI.Cases.lean ====
/-
  The summary kernel's grid is 8 batches × 4 position tiles, walked with the tile index fastest: point t is batch
  t / 4, tile t % 4. Its body branches twice on the tile index: the accumulator is zeroed first at tile 0, and is
  copied into the output block after tile 3. So a point is in one of three cases —
    first  (tile 0):      zero, then add this tile's product;
    middle (tiles 1, 2):  add this tile's product;
    last   (tile 3):      add this tile's product, then copy the accumulator out —
  and the output window is idle (nothing stored, nothing written back) in the first two.
  Here: the two conditions in closed form over the grid, the idle table read at each case, the staging memrefs
  and the accumulator as the body is called with them, and the region's invariant with the accumulator named.
-/
import proofs.«120352_j20598663151742_1_alg».proof.Proof.Gen.KernelIdeal.Launch
import proofs.«120352_j20598663151742_1_alg».proof.Proof.Gen.KernelIdeal.Skeleton
import proofs.«120352_j20598663151742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- "this is tile 0": the accumulator is zeroed first. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "this is tile 3": the accumulator is copied into the output block. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem idle0_2_first : ∀ t : Fin cfg0.N, condFirst (grid0.coords t) → ¬condLast (grid0.coords t) → cfg0.idle 2 (grid0.coords t) = true := by decide +kernel
theorem noFlush0_2_first : ∀ t : Fin cfg0.N, condFirst (grid0.coords t) → ¬condLast (grid0.coords t) → (cfg0.win 2).flush t = false := by decide +kernel
theorem idle0_2_mid : ∀ t : Fin cfg0.N, ¬condFirst (grid0.coords t) → ¬condLast (grid0.coords t) → cfg0.idle 2 (grid0.coords t) = true := by decide +kernel
theorem noFlush0_2_mid : ∀ t : Fin cfg0.N, ¬condFirst (grid0.coords t) → ¬condLast (grid0.coords t) → (cfg0.win 2).flush t = false := by decide +kernel
theorem live0_2_last : ∀ t : Fin cfg0.N, ¬condFirst (grid0.coords t) → condLast (grid0.coords t) → cfg0.idle 2 (grid0.coords t) = false := by decide +kernel

/-! ## The memrefs the body is called with -/

/-- One staging buffer of the output window, through which its contents are stated. -/
abbrev VO0_2 : View sig .tc .vmem S1x256x256 .f32 := (Memref.whole cc0_stg2_0 : Memref sig .tc .vmem S1x256x256 .f32).view
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM : Memref sig .tc .vmem S256x256 .f32 := Memref.whole cc0_scratch0
abbrev VAcc : View sig .tc .vmem S256x256 .f32 := accM.view

/-! ## The scoped buffers the summary kernel never touches -/

/-- The second kernel's six staging buffers, each whole at some contents: they ride through the first region. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's class invariant holds: the accumulator at some contents, those six, the generator register. -/
theorem PhiA0_eq (c : Dev nD) :
    (Pipeline.ΦA spec0 c : sProp 𝕄)
      = iprop(iprop((∃ d, owns (c : Thread nD τ) accM fullShare d) ∗ otherStaging c) ∗ (∃ r, prngReg c r)) := by
  unfold Pipeline.ΦA otherStaging; rw [scopedRest0_eq]; simp only [accM, owns_whole]; try rfl

end Cert.KernelIdeal.Hand

end
-- ==== Proof.KI.RunFirst.lean ====
/-
  The summary kernel's body at a FIRST tile of a batch: the accumulator, whatever it held, is overwritten with
  zero and then with zero plus this tile's product φ(K-tile)ᵀ · V-tile; the output block is not touched.
  The body's triple on whole staging memrefs, the stores' pieces found by running it.
-/
import proofs.«120352_j20598663151742_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the accumulator (last first) at a first tile, with the proof that from
    the two input blocks at `x0`, `x1`, the output buffer at any contents `xi2` (handed back untouched) and the
    accumulator at anything, the body runs to the continuation holding the inputs and the output buffer as they
    were and the accumulator with those pieces written. -/
noncomputable def runFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i)
    (x0 : Vec F S1x1024x256 .f32) (x1 : Vec F S1x1024x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunMid.lean ====
/-
  The summary kernel's body at a MIDDLE tile of a batch: the accumulator, holding what the tile before left,
  gets this tile's product φ(K-tile)ᵀ · V-tile added; the output block is not touched.
-/
import proofs.«120352_j20598663151742_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's store leaves in the accumulator at a middle tile, with the proof that from the two input
    blocks at `x0`, `x1`, the output buffer at any contents `xi2` (handed back untouched) and the accumulator at
    `xs`, the body runs to the continuation holding the inputs and the output buffer as they were and the
    accumulator with those pieces written. -/
noncomputable def runMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i)
    (x0 : Vec F S1x1024x256 .f32) (x1 : Vec F S1x1024x256 .f32) (xs : Vec F S256x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunLast.lean ====
/-
  The summary kernel's body at the LAST tile of a batch: the accumulator, holding what the tile before left, gets
  this tile's product added, and the sum is then copied whole into the output block.
-/
import proofs.«120352_j20598663151742_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer and in the accumulator at a last tile, with the proof
    that from the two input blocks at `x0`, `x1`, the output buffer at anything and the accumulator at `xs`, the
    body runs to the continuation holding the inputs as they were and both buffers with their pieces written. -/
noncomputable def runLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i)
    (x0 : Vec F S1x1024x256 .f32) (x1 : Vec F S1x1024x256 .f32) (xs : Vec F S256x256 .f32) :
    Σ' (L2 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.SummaryRegion.lean ====
/-
  The summary region (the first kernel: per batch, the 256 × 256 matrix Σ_s φ(K[s, ·])ᵀ V[s, ·], accumulated over
  four tiles of 1024 positions), entered with the core's buffers at contents `V`.
  What the accumulator holds after each grid point is a recursion on the point: at a first tile the body's result
  from this tile's two blocks alone, at a later tile its result from the blocks and what the point before left.
  The output block is stored only at a last tile, from the accumulator. The region's invariant names the
  accumulator's contents between points; the body obligation is then the case's run at each point.
-/
import proofs.«120352_j20598663151742_1_alg».proof.Proof.KI.RunFirst
import proofs.«120352_j20598663151742_1_alg».proof.Proof.KI.RunMid
import proofs.«120352_j20598663151742_1_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What each case leaves -/

/-- A first tile stores nothing into the output block: a placeholder nothing consults. -/
def outFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) : Vec F S1x256x256 .f32 :=
  VO0_2.read (Elt F) (VO0_2.writes (Elt F) VO0_2.junk (runFirst c i arg2 harg2 arg3 harg3 arg4 harg4 arg5 harg5 hc0 hc1 x0 x1).1)
theorem accCoverFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) (y : S256x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S256x256.size (by sl_kernel_rfl) y
/-- What a first tile leaves in the accumulator. -/
def accFirst (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i) (x0 x1 : Vec F S1x1024x256 .f32) : Vec F S256x256 .f32 :=
  VAcc.read (Elt F) (VAcc.writes (Elt F) VAcc.junk (runFirst c i arg2 harg2 arg3 harg3 arg4 harg4 arg5 harg5 hc0 hc1 x0 x1).2.1)

/-- A middle tile stores nothing into the output block either. -/
def outMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) : Vec F S1x256x256 .f32 :=
  VO0_2.read (Elt F) (VO0_2.writes (Elt F) VO0_2.junk (runMid c i arg2 harg2 arg3 harg3 arg4 harg4 arg5 harg5 hc0 hc1 x0 x1 xs).1)
theorem accCoverMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) (y : S256x256.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S256x256.size (by sl_kernel_rfl) y
/-- What a middle tile leaves in the accumulator, given what the tile before left. -/
def accMid (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i) (x0 x1 : Vec F S1x1024x256 .f32) (xs : Vec F S256x256 .f32) : Vec F S256x256 .f32 :=
  VAcc.read (Elt F) (VAcc.writes (Elt F) VAcc.junk (runMid c i arg2 harg2 arg3 harg3 arg4 harg4 arg5 harg5 hc0 hc1 x0 x1 xs).2.1)

theorem outCoverLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) (y : S1x256x256.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x256x256.size (by sl_kernel_rfl) y
/-- What the last tile leaves in the output block. -/
def outLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) : Vec F S1x256x256 .f32 :=
  VO0_2.read (Elt F) (VO0_2.writes (Elt F) VO0_2.junk (runLast c i arg2 harg2 arg3 harg3 arg4 harg4 arg5 harg5 hc0 hc1 x0 x1 xs).1)
theorem accCoverLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) (y : S256x256.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S256x256.size (by sl_kernel_rfl) y
/-- What the last tile leaves in the accumulator. -/
def accLast (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i) (x0 x1 : Vec F S1x1024x256 .f32) (xs : Vec F S256x256 .f32) : Vec F S256x256 .f32 :=
  VAcc.read (Elt F) (VAcc.writes (Elt F) VAcc.junk (runLast c i arg2 harg2 arg3 harg3 arg4 harg4 arg5 harg5 hc0 hc1 x0 x1 xs).2.1)

section Region
variable (V : (c : Dev nD) → (b : Ref sig .tc) → Buf (Elt F) ((c : Thread nD τ).loc b))

/-! ## Point by point -/

/-- What the output block's staging buffer and the accumulator hold after the body at position `n`: the case the
    closed forms select there, run at the point's memrefs and input blocks, the accumulator at what the point
    before left. -/
def outsAt0 (c : Dev nD) : (n : ℕ) → n < cfg0.N → Vec F S1x256x256 .f32 × Vec F S256x256 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩), accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((hcondFirst ⟨0, hn⟩).mpr (Nat.zero_mod _)) (fun h => (fun h => by (try dsimp only at h); omega) ((hcondLast ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩), accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((hcondFirst ⟨n + 1, hn⟩).mpr h0) (fun h => h1 ((hcondLast ⟨n + 1, hn⟩).mp h)) (iblk0 V c 0 ⟨n + 1, hn⟩) (iblk0 V c 1 ⟨n + 1, hn⟩))
    else
      if h1 : (n + 1) % 4 = 3 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2, accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) ((hcondLast ⟨n + 1, hn⟩).mpr h1) (iblk0 V c 0 ⟨n + 1, hn⟩) (iblk0 V c 1 ⟨n + 1, hn⟩) (outsAt0 c n (Nat.lt_of_succ_lt hn)).2)
      else
        (outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((hcondFirst ⟨n + 1, hn⟩).mp h)) (fun h => h1 ((hcondLast ⟨n + 1, hn⟩).mp h)) (iblk0 V c 0 ⟨n + 1, hn⟩) (iblk0 V c 1 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (outFirst c (grid0.coords t) (ms0_0 t) (hs0_0 t) (ms0_1 t) (hs0_1 t) (ms0_2 t) (hs0_2 t) accM (Memref.isWhole_whole _) ((hcondFirst t).mpr h0) (fun h => h1 ((hcondLast t).mp h)) (iblk0 V c 0 t) (iblk0 V c 1 t), accFirst c (grid0.coords t) (ms0_0 t) (hs0_0 t) (ms0_1 t) (hs0_1 t) (ms0_2 t) (hs0_2 t) accM (Memref.isWhole_whole _) ((hcondFirst t).mpr h0) (fun h => h1 ((hcondLast t).mp h)) (iblk0 V c 0 t) (iblk0 V c 1 t)) := by
  obtain ⟨n, hn⟩ := t
  cases n with
  | zero => exact rfl
  | succ n => exact (dif_pos h0).trans ((dif_neg h1).trans rfl)

theorem outsAt0_mid (c : Dev nD) (t : Fin cfg0.N) (h0 : ¬t.val % 4 = 0) (h1 : ¬t.val % 4 = 3) :
    outsAt0 V c t.val t.isLt = (outMid c (grid0.coords t) (ms0_0 t) (hs0_0 t) (ms0_1 t) (hs0_1 t) (ms0_2 t) (hs0_2 t) accM (Memref.isWhole_whole _) (fun h => h0 ((hcondFirst t).mp h)) (fun h => h1 ((hcondLast t).mp h)) (iblk0 V c 0 t) (iblk0 V c 1 t) (outsAt0 V c (t.val - 1) (Nat.lt_of_le_of_lt (Nat.sub_le _ _) t.isLt)).2, accMid c (grid0.coords t) (ms0_0 t) (hs0_0 t) (ms0_1 t) (hs0_1 t) (ms0_2 t) (hs0_2 t) accM (Memref.isWhole_whole _) (fun h => h0 ((hcondFirst t).mp h)) (fun h => h1 ((hcondLast t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (outLast c (grid0.coords t) (ms0_0 t) (hs0_0 t) (ms0_1 t) (hs0_1 t) (ms0_2 t) (hs0_2 t) accM (Memref.isWhole_whole _) (fun h => h0 ((hcondFirst t).mp h)) ((hcondLast t).mpr h1) (iblk0 V c 0 t) (iblk0 V c 1 t) (outsAt0 V c (t.val - 1) (Nat.lt_of_le_of_lt (Nat.sub_le _ _) t.isLt)).2, accLast c (grid0.coords t) (ms0_0 t) (hs0_0 t) (ms0_1 t) (hs0_1 t) (ms0_2 t) (hs0_2 t) accM (Memref.isWhole_whole _) (fun h => h0 ((hcondFirst t).mp h)) ((hcondLast t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class's invariant (the accumulator at anything); afterwards
    the accumulator at what the point before left, the second kernel's staging buffers at anything, the generator
    register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherStaging c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ otherStaging c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ otherStaging c) ∗ (∃ r, prngReg c r)) := by
  cases n with
  | zero => exact absurd rfl hz
  | succ n => rfl

/-! ## The proof data -/

/-- The summary region's proof data on core `c`: the arrays as the region finds them; after the body at point `t`
    each input's buffer at its block and the output's at `outsAt0`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' memrefs hold their blocks; the closed forms say which case the point is in;
    the invariant hands the body the accumulator at what the point before left (at anything at the very first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have h1 : ¬t.val % 4 = 3 := by omega
    rw [Dat.leavesExact_idle (dat0 V c) 2 t (idle0_2_first t ((hcondFirst t).mpr h0) (fun h => h1 ((hcondLast t).mp h))) (noFlush0_2_first t ((hcondFirst t).mpr h0) (fun h => h1 ((hcondLast t).mp h)))]
    rw [outsAt0_first V c t h0 h1]
    unfold accFirst; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverFirst c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverFirst c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [live0_2_last t (fun h => h0 ((hcondFirst t).mp h)) ((hcondLast t).mpr h1)], after0_2]
      rw [outsAt0_last V c t h0 h1]
      unfold outLast accLast; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverLast c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast c _ _ _ _ _ _ _ _ _ _ _ _ _ _)
    · rw [Dat.leavesExact_idle (dat0 V c) 2 t (idle0_2_mid t (fun h => h0 ((hcondFirst t).mp h)) (fun h => h1 ((hcondLast t).mp h))) (noFlush0_2_mid t (fun h => h0 ((hcondFirst t).mp h)) (fun h => h1 ((hcondLast t).mp h)))]
      rw [outsAt0_mid V c t h0 h1]
      unfold accMid; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCoverMid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region

end Cert.KernelIdeal.Hand

end
-- ==== Proof.KI.OutRun.lean ====
/-
  The output kernel's body: it loads a block of 1024 query rows and the batch's 256 × 256 summary, and stores
  φ(Q-block) · summary over the whole output block. What the output buffer then holds is one function of the two
  loaded blocks.
-/
import proofs.«120352_j20598663151742_1_alg».proof.Proof.Gen.KernelIdeal.Launch
import proofs.«120352_j20598663151742_1_alg».proof.Proof.Gen.KernelIdeal.Skeleton
import proofs.«120352_j20598663151742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole query / output block and the whole summary block, as the body's literal rectangles. -/
abbrev rRows : Rect S1x1024x256 := Rect.unit (s := S1x1024x256) ![0, 0, 0] S1x1024x256.size inb_S1x1024x256_S1x1024x256_0_0_0
abbrev rSummary : Rect S1x256x256 := Rect.unit (s := S1x256x256) ![0, 0, 0] S1x256x256.size inb_S1x256x256_S1x256x256_0_0_0

/-- The output buffer after the body, from the two input blocks: its one store, as a piece. -/
def outBlock (x0 : Vec F S1x1024x256 .f32) (x1 : Vec F S1x256x256 .f32) : Vec F S1x1024x256 .f32 :=
  View.canon [⟨rRows, k1_pay1 (View.ld x0 rRows) (View.ld x1 rSummary)⟩]

/-- The one store covers the buffer. -/
theorem outCover (p0 : Vec F S1x1024x256 .f32) (y : S1x1024x256.Idx) :
    ∃ pc ∈ ([⟨rRows, p0⟩] : List (View.Piece (Elt F) S1x1024x256 .f32)), y ∈ pc.1.set :=
  View.cover_of_tiled [⟨rRows, p0⟩] S1x1024x256.size (by rfl) y

set_option maxHeartbeats 4000000 in
/-- The body on whole staging memrefs, the inputs' at read contents `x0`, `x1` and the output's at anything, runs to
    the continuation holding the inputs' as they were and the output's at `outBlock x0 x1`. -/
theorem sound_out (c : Dev nD) (E : Set ℕ) (i : grid1.Coords) (arg2 : Memref sig .tc .vmem S1x1024x256 .f32) (harg2 : arg2.IsWhole) (arg3 : Memref sig .tc .vmem S1x256x256 .f32) (harg3 : arg3.IsWhole) (arg4 : Memref sig .tc .vmem S1x1024x256 .f32) (harg4 : arg4.IsWhole)
    (x0 : Vec F S1x1024x256 .f32) (x1 : Vec F S1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Hand

end
-- ==== Proof.KI.OutRegion.lean ====
/-
  The output region (the second kernel: out-block = φ(Q-block) · summary of the block's batch), entered with the
  core's buffers at contents `V`. Every point loads its two blocks and stores the whole output block, so the
  proof data is the plain one: each input's buffer holds its block — the summary's is fetched only when the batch
  changes and kept in place in between —, the output's holds `outBlock` of the two.
-/
import proofs.«120352_j20598663151742_1_alg».proof.Proof.KI.OutRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outBlock (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outBlock (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_out c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.TwoRegions.lean ====
/-
  The whole program: the summary region, then the output region, nothing on the host in between.
  The core's buffers at the three boundaries: as launched; after the summary region, where the summary array
  holds what that region's write-backs left and everything else is as launched; after the output region, where
  the result array holds what its write-backs left. Each region is entered from "every unscoped buffer at the
  boundary's contents, the generator register at some state, nothing owed" and left at the same at the next
  boundary. Read at the end: the result array at the second region's final contents, and the three arguments as
  launched — no region writes an argument.
-/
import proofs.«120352_j20598663151742_1_alg».proof.Proof.KI.SummaryRegion
import proofs.«120352_j20598663151742_1_alg».proof.Proof.KI.OutRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- Core `c`'s buffers at launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the summary region: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the output region. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-! ## The arguments end as launched -/

/-- The queries: read by the output region through an input window, bypassed by the summary region. -/
theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := (Wc_arr m ρ c 0).trans (((dat1 (Vb m ρ) c).arrAt_in 0 rfl _).trans (A_eq1 (Vb m ρ) c 0))
    _ = Wa m ρ c (Proc.devRef .tc main_arg0) := Wb_of_ne m ρ c main_arg0 (by decide)
    _ = m ((c : Thread nD τ).loc main_arg0) := rfl
/-- The keys: read by the summary region through an input window, bypassed by the output region. -/
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Wc_of_ne m ρ c main_arg1 (by decide)
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl
/-- The values: likewise. -/
theorem Wc_main_arg2 (c : Dev nD) : Wc m ρ c (Proc.devRef .tc main_arg2) = m ((c : Thread nD τ).loc main_arg2) :=
  calc Wc m ρ c (Proc.devRef .tc main_arg2)
    _ = Wb m ρ c (Proc.devRef .tc main_arg2) := Wc_of_ne m ρ c main_arg2 (by decide)
    _ = Wa m ρ c (Proc.devRef .tc main_arg2) := (Wb_arr m ρ c 1).trans (((dat0 (Va m ρ) c).arrAt_in 1 rfl _).trans (A_eq0 (Va m ρ) c 1))
    _ = m ((c : Thread nD τ).loc main_arg2) := rfl

/-! ## The proof data family and the thread state -/

/-- The prefetched tables' admissible contents: no pipeline has a table. -/
abbrev adm₂ : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm₂ p) c
  | ⟨0, _⟩ => fun c => dat0 (Va m ρ) c
  | ⟨1, _⟩ => fun c => dat1 (Vb m ρ) c
abbrev 𝒱₀ : Variants := Variants.none
abbrev Lz : GSem nD τ sig → Finset Unit := fun _ => ∅
abbrev lvz : GSem nD τ sig → Unit → ℕ := fun _ _ => 0
/-- What rides beside the buffers through both regions: the generator register at some state and the core's
    `owes`, at nothing. -/
abbrev Rz (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wc m ρ c) ∗ ∃ r, prngReg c r)

/-! ## The regions as segments -/

set_option backward.isDefEq.respectTransparency.types false in
/-- The summary region over the thread state: entered from every unscoped buffer at launch contents, left with the
    summary array at what its write-backs leave. -/
def reg0 : Pipeline.RegionSeg (pcfgs (F := F)) adm₂ (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ Lz lvz 0 fun _ _ => rfl
  pre c := iprop(StableHlo.held (c : Thread nD τ) (Pipeline.ucRefs τ sig) (Wa m ρ c) ∗ Rz c)
  post c := iprop(StableHlo.held (c : Thread nD τ) (Pipeline.ucRefs τ sig) (Wb m ρ c) ∗ Rz c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm₂ (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm₂ 0).1
          ∗ Pipeline.scopedRest (Pipeline.pin (pcfgs (F := F)) adm₂ 0).spec c) ⊢ (Pipeline.ΦA spec0 c : sProp 𝕄) := by
      unfold Pipeline.ΦA
      iintro ⟨Hp, -, Hr⟩
      isplitl [Hr]; · iexact Hr
      iexact Hp
    exact h.trans (hin0 (Va m ρ) c)
  hout c := by
    rw [Pipeline.ownSems0_none]
    have h : (Pipeline.ΦA spec0 c : sProp 𝕄) ⊢ iprop((∃ r, prngReg c r) ∗ emp
          ∗ Pipeline.scopedRest (Pipeline.pin (pcfgs (F := F)) adm₂ 0).spec c) := by
      unfold Pipeline.ΦA
      iintro ⟨Hr, Hp⟩
      isplitl [Hp]; · iexact Hp
      isplitr; · iempintro
      iexact Hr
    exact (hout0 (Va m ρ) c).trans h
  hexit c := by
    have hjoin := Pipeline.unscopedBufs_of_arrays (p := 0) (pcfgs (F := F)) adm₂ (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region over the thread state: entered from the buffers as the summary region left them, left with
    the result array at what its write-backs leave. -/
def reg1 : Pipeline.RegionSeg (pcfgs (F := F)) adm₂ (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ Lz lvz 1 fun _ _ => rfl
  pre c := iprop(StableHlo.held (c : Thread nD τ) (Pipeline.ucRefs τ sig) (Wb m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm₂ (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₂ (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs₂ : List (Pipeline.Seg (pcfgs (F := F)) adm₂ (pdats m ρ) () defs₀ 𝒱₀ Lz lvz) :=
  [ .region (reg0 m ρ), .region (reg1 m ρ) ]
theorem main_run (c : Dev nD) : main (F := F) c = Pipeline.Seg.run (segs₂ m ρ) := (main_chain c).trans (by chain_rfl)

set_option backward.isDefEq.respectTransparency.types false in
/-- From any memory with zero counters every weakly fair execution of the program terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm₂ (pdats m ρ) () cellOf_inj emb₁ defs₀ 𝒱₀ Lz lvz m ρ main (segs₂ m ρ)
    (fun c Q => by rw [main_run m ρ c])
    (by simp only [segs₂, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ Rz c)) (Tₙ := Tend m ρ)
    (hch := ⟨fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun s h c => h c)

/-- The result array ends at what the output region's write-backs leave; the three arguments end as launched. -/
theorem run_result : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (Wc_arr m ρ c 2),
     (h c _ (mem_uc main_arg0 (by decide))).trans (Wc_main_arg0 m ρ c),
     (h c _ (mem_uc main_arg1 (by decide))).trans (Wc_main_arg1 m ρ c),
     (h c _ (mem_uc main_arg2 (by decide))).trans (Wc_main_arg2 m ρ c)⟩) (run_all m ρ)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.Value.CaseValues.lean ====
/-
  What each case of the summary kernel's body leaves, as the body's arithmetic of what it was handed:
  a first tile leaves   acc' = step(K-tile, V-tile, 0-matrix);
  a later tile leaves   acc' = step(K-tile, V-tile, acc)       (acc: what the tile before left);
  the last tile also stores the new accumulator, re-laid with a leading unit axis, as the output block.
  Here step is the body's one accumulating store (the tile's product added to the accumulator) and the 0-matrix
  the zeroing store's payload. Each is read off the pieces the run of that case found: the last store into a
  buffer covers it, and a load after a covering store reads that store's payload.
-/
import proofs.«120352_j20598663151742_1_alg».proof.Proof.KI.SummaryRegion
import Idealize.ShloMosaic.Lib.Pipeline.Value
import Idealize.ShloMosaic.Lib.ValueIdx

set_option maxRecDepth 16384

noncomputable section

namespace Cert.LinAttn.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.LinAttn
open scoped BigOperators

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle tile: the accumulator becomes the accumulating store's payload of the two blocks and the old accumulator. -/
theorem accMid_eq (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : ¬condLast i)
    (x0 x1 : Vec F S1x1024x256 .f32) (xs : Vec F S256x256 .f32) :
    accMid c i arg2 harg2 arg3 harg3 arg4 harg4 arg5 harg5 hc0 hc1 x0 x1 xs = k0_pay2 x0 x1 xs := by
  unfold accMid
  rw [View.read_writes_eq_canon _ _ _ (accCoverMid c i arg2 harg2 arg3 harg3 arg4 harg4 arg5 harg5 hc0 hc1 x0 x1 xs)]
  unfold runMid
  dsimp only
  rw [View.canon_unit_zero zeros2]
  simp only [View.readAt_eq_ld, Memref.IsWhole.read_unread, View.ld_unit_zero (S := S1x1024x256) zeros3, View.ld_unit_zero (S := S256x256) zeros2]

/-- A first tile: the same payload of the two blocks and the zeroing store's payload. -/
theorem accFirst_eq (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : condFirst i) (hc1 : ¬condLast i)
    (x0 x1 : Vec F S1x1024x256 .f32) :
    accFirst c i arg2 harg2 arg3 harg3 arg4 harg4 arg5 harg5 hc0 hc1 x0 x1 = k0_pay2 x0 x1 k0_pay1 := by
  unfold accFirst
  rw [View.read_writes_eq_canon _ _ _ (accCoverFirst c i arg2 harg2 arg3 harg3 arg4 harg4 arg5 harg5 hc0 hc1 x0 x1)]
  unfold runFirst
  dsimp only
  rw [View.canon_cons_unit_zero zeros2]
  sl_unfold_words
  rw [View.readCov_unit_zero _ zeros2]
  simp only [View.readAt_eq_ld, Memref.IsWhole.read_unread, View.ld_unit_zero (S := S1x1024x256) zeros3, View.ld_unit_zero (S := S256x256) zeros2]

/-- The last tile: the accumulator as at a middle tile … -/
theorem accLast_eq (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i)
    (x0 x1 : Vec F S1x1024x256 .f32) (xs : Vec F S256x256 .f32) :
    accLast c i arg2 harg2 arg3 harg3 arg4 harg4 arg5 harg5 hc0 hc1 x0 x1 xs = k0_pay2 x0 x1 xs := by
  unfold accLast
  rw [View.read_writes_eq_canon _ _ _ (accCoverLast c i arg2 harg2 arg3 harg3 arg4 harg4 arg5 harg5 hc0 hc1 x0 x1 xs)]
  unfold runLast
  dsimp only
  sl_unfold_words
  rw [View.canon_unit_zero zeros2]
  simp only [View.readAt_eq_ld, Memref.IsWhole.read_unread, View.ld_unit_zero (S := S1x1024x256) zeros3, View.ld_unit_zero (S := S256x256) zeros2]

/-- … and the output block the new accumulator, re-laid. -/
theorem outLast_eq (c : Dev nD) (i : grid0.Coords) (arg2 : Memref sig .tc .vmem S1x1024x256 .f32) (harg2 : arg2.IsWhole) (arg3 : Memref sig .tc .vmem S1x1024x256 .f32) (harg3 : arg3.IsWhole) (arg4 : Memref sig .tc .vmem S1x256x256 .f32) (harg4 : arg4.IsWhole) (arg5 : Memref sig .tc .vmem S256x256 .f32) (harg5 : arg5.IsWhole) (hc0 : ¬condFirst i) (hc1 : condLast i)
    (x0 x1 : Vec F S1x1024x256 .f32) (xs : Vec F S256x256 .f32) :
    outLast c i arg2 harg2 arg3 harg3 arg4 harg4 arg5 harg5 hc0 hc1 x0 x1 xs = k0_pay3 (k0_pay2 x0 x1 xs) := by
  unfold outLast
  rw [View.read_writes_eq_canon _ _ _ (outCoverLast c i arg2 harg2 arg3 harg3 arg4 harg4 arg5 harg5 hc0 hc1 x0 x1 xs)]
  unfold runLast
  dsimp only
  rw [View.canon_unit_zero zeros3]
  sl_unfold_words
  rw [View.readCov_unit_zero _ zeros2]
  simp only [View.readAt_eq_ld, Memref.IsWhole.read_unread, View.ld_unit_zero (S := S1x1024x256) zeros3, View.ld_unit_zero (S := S256x256) zeros2]

end Cert.LinAttn.KernelValue

end
-- ==== Proof.Value.SummaryBlocks.lean ====
/-
  The summary region's blocks, read where they sit in their arrays. Point t of the 8 × 4 grid is batch t / 4,
  tile t % 4: the key and value windows' block there is rows 1024·(t % 4) … of batch t / 4 (all 256 columns), and
  the output window's block is the whole 256 × 256 matrix of batch t / 4.
-/
import proofs.«120352_j20598663151742_1_alg».proof.Proof.KI.SummaryRegion
import Idealize.ShloMosaic.Lib.Pipeline.Value
import Idealize.ShloMosaic.Lib.ValueIdx

set_option maxRecDepth 16384

noncomputable section

namespace Cert.LinAttn.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.LinAttn
open scoped BigOperators

variable {F : FTy → Type} [FloatOps F]

/-- The three windows' block indices at every point, decided once over the grid. -/
theorem blockIdx0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

section
variable (V : (c : Dev nD) → (b : Ref sig .tc) → Buf (Elt F) ((c : Thread nD τ).loc b))

/-- The key window's block at point t, entry (0, r, d), is the key array at (t / 4, 1024·(t % 4) + r, d). -/
theorem keyBlock_apply (c : Dev nD) (t : Fin cfg0.N) (y : S1x1024x256.Idx) (i : S8x4096x256.Idx)
    (h0 : (i 0).val = t.val / 4) (h1 : (i 1).val = 1024 * (t.val % 4) + (y 1).val) (h2 : (i 2).val = (y 2).val) :
    iblk0 V c 0 t y = V c main_arg1 i := by
  show V c main_arg1 (((cfg0.win 0).blk t).view.emb y) = V c main_arg1 i
  refine congrArg _ ?_
  obtain ⟨e0, e1, e2, -⟩ := blockIdx0 t
  funext a; apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 1024 + 1 * (y 1).val = (i 1).val; omega
  | ⟨2, _⟩ => show win0_0.index t (2 : Fin 3) * 256 + 1 * (y 2).val = (i 2).val; omega

/-- The value window's block likewise, in the value array. -/
theorem valueBlock_apply (c : Dev nD) (t : Fin cfg0.N) (y : S1x1024x256.Idx) (i : S8x4096x256.Idx)
    (h0 : (i 0).val = t.val / 4) (h1 : (i 1).val = 1024 * (t.val % 4) + (y 1).val) (h2 : (i 2).val = (y 2).val) :
    iblk0 V c 1 t y = V c main_arg2 i := by
  show V c main_arg2 (((cfg0.win 1).blk t).view.emb y) = V c main_arg2 i
  refine congrArg _ ?_
  obtain ⟨-, -, -, e0, e1, e2, -⟩ := blockIdx0 t
  funext a; apply Fin.ext
  match a with
  | ⟨0, _⟩ => show win0_1.index t (0 : Fin 3) * 1 + 1 * (y 0).val = (i 0).val; have hy : (y 0).val < 1 := (y 0).isLt; omega
  | ⟨1, _⟩ => show win0_1.index t (1 : Fin 3) * 1024 + 1 * (y 1).val = (i 1).val; omega
  | ⟨2, _⟩ => show win0_1.index t (2 : Fin 3) * 256 + 1 * (y 2).val = (i 2).val; omega

end

end Cert.LinAttn.KernelValue

end
-- ==== Proof.Spec.lean ====
/-
  Linear attention with the feature map φ(x) = max(x, 0) + ε, over the extended reals:

      kv b d v  = Σ_s φ(K[b, s, d]) · V[b, s, v]            (s over the 4096 positions)
      out b q v = Σ_d φ(Q[b, q, d]) · kv b d v              (d over the 256 features)

  the one function of the three argument arrays that both programs are shown to compute, index by index.
  ε is the shared float literal, kept as its word.
-/
import Idealize.ShloMosaic.PureOps.Ideal
import Idealize.ShloMosaic.Lib.ValueIdx

noncomputable section

namespace Cert.LinAttn

open Idealize.ShloMosaic Idealize.ShloMosaic.ValueIdx
open scoped BigOperators

/-- An array of shape [8, 4096, 256] of extended reals. -/
abbrev Arr3 : Type := (⟨3, ![8, 4096, 256]⟩ : Shape).Idx → EReal

/-- The additive constant of the feature map: the literal both programs carry. -/
def eps : EReal := Ideal.ofBits .f32 0x358637BD#32

/-- The feature map φ(x) = max(x, 0) + ε. -/
def feat (x : EReal) : EReal := max x 0 + eps

/-- The key–value summary of batch `b`: entry (d, v) sums φ(K[b, s, d]) · V[b, s, v] over all positions s. -/
def kv (K V : Arr3) (b : Fin 8) (d v : Fin 256) : EReal :=
  ∑ s : Fin 4096, feat (K (ix3 b s d)) * V (ix3 b s v)

/-- The output at (b, q, v): φ(Q[b, q, ·]) against column v of the summary of batch b. -/
def out (Q K V : Arr3) (b : Fin 8) (q : Fin 4096) (v : Fin 256) : EReal :=
  ∑ d : Fin 256, feat (Q (ix3 b q d)) * kv K V b d v

/-- The whole result array. -/
def G (Q K V : Arr3) : Arr3 := fun i => out Q K V (i 0) (i 1) (i 2)

/-- The summary as an array of shape [8, 256, 256]. -/
def KV (K V : Arr3) : (⟨3, ![8, 256, 256]⟩ : Shape).Idx → EReal := fun i => kv K V (i 0) (i 1) (i 2)

end Cert.LinAttn

end
-- ==== Proof.PayloadValue.lean ====
/-
  The kernel bodies' stored values, read at an index, over the extended reals.

  The first body keeps a 256 × 256 accumulator: it is cleared to zero at the first block of a batch (`pay1_apply`),
  gains at every block the product  φ(K-block)ᵀ · V-block  — entry (d, v) is the sum over the block's 1024 rows r of
  φ(k[r, d]) · v[r, v], both operands contracted along their rows (`pay2_apply`) —, and is copied out unchanged
  under a leading unit axis at the last block (`pay3_apply`). The second body stores  φ(Q-block) · KV : entry (q, v)
  is the sum over the 256 features d of φ(q[q, d]) · kv[d, v] (`k1_pay1_apply`). Here φ(x) = max(x, 0) + ε. Over the
  extended reals the narrowing format changes are the identity, the zero word is 0, and a matrix product into the
  zero accumulator is the plain sum over its one contracted axis.
-/
import proofs.«120352_j20598663151742_1_alg».proof.Proof.Gen.KernelIdeal.Skeleton
import proofs.«120352_j20598663151742_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.LinAttn.Pay

open Cert.KernelIdeal Cert.KernelIdeal.Gen Idealize.ShloMosaic Idealize.ShloMosaic.ValueIdx Cert.LinAttn
open scoped BigOperators

/-! ## The feature map on a block, and a block with its unit axis dropped -/

/-- A [1, 1024, 256] block with its unit axis dropped, the maximum with zero taken, ε added and the format narrowed
    reads φ of the block's element. -/
theorem featBlock_apply (x : Vec Ideal S1x1024x256 .f32) (r : Fin 1024) (c : Fin 256) :
    (truncf .bf16 (addf (maximumf (shapeCast S1024x256 x shapeCasts_S1x1024x256_S1024x256)
        (broadcast S1024x256 (Scalar.ofBits (F := Ideal) .f32 0x00000000#32)))
        (broadcast S1024x256 (Scalar.ofBits (F := Ideal) .f32 0x358637BD#32))) bitsLt_bf16_f32 : FVec Ideal S1024x256 .bf16) (ix2 r c)
      = feat (x (ix3 (0 : Fin 1) r c)) := by
  show max (shapeCast S1024x256 x shapeCasts_S1x1024x256_S1024x256 (ix2 r c)) (Ideal.ofBits .f32 0x00000000#32)
      + Ideal.ofBits .f32 0x358637BD#32 = _
  rw [shapeCast_1ab_ab_apply, Ideal.ofBits_zero_f32]
  rfl

/-- A [1, 1024, 256] block with its unit axis dropped and the format narrowed reads the block's element. -/
theorem castBlock_apply (x : Vec Ideal S1x1024x256 .f32) (r : Fin 1024) (c : Fin 256) :
    (truncf .bf16 (shapeCast S1024x256 x shapeCasts_S1x1024x256_S1024x256) bitsLt_bf16_f32 : FVec Ideal S1024x256 .bf16) (ix2 r c)
      = x (ix3 (0 : Fin 1) r c) :=
  shapeCast_1ab_ab_apply x shapeCasts_S1x1024x256_S1024x256 r c

/-- A [1, 256, 256] block with its unit axis dropped and the format narrowed reads the block's element. -/
theorem castSummary_apply (x : Vec Ideal S1x256x256 .f32) (r c : Fin 256) :
    (truncf .bf16 (shapeCast S256x256 x shapeCasts_S1x256x256_S256x256) bitsLt_bf16_f32 : FVec Ideal S256x256 .bf16) (ix2 r c)
      = x (ix3 (0 : Fin 1) r c) :=
  shapeCast_1ab_ab_apply x shapeCasts_S1x256x256_S256x256 r c

/-! ## The first body's product: both operands contracted along their rows -/

theorem lhs0_0 (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem lhs0_1 (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem rhs0_0 (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem rhs0_1 (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- Entry (d, v) of lhsᵀ · rhs accumulated into zero is Σ r, lhs (r, d) · rhs (r, v). -/
theorem matmul0_apply (lhs rhs : FVec Ideal S1024x256 .bf16) (d v : Fin 256) :
    matmul dot_S1024x256_S1024x256_S256x256_0_0_1_1_n_n none lhs rhs (constant (F := Ideal) S256x256 .f32 0x00000000#32) (ix2 d v)
      = ∑ r : Fin 1024, lhs (ix2 r d) * rhs (ix2 r v) := by
  simp only [matmul]
  rw [Ideal.matmul_constant_zero_apply, ← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 d v) ((contrEquiv1 dot_S1024x256_S1024x256_S256x256_0_0_1_1_n_n 1024 rfl rfl).symm k) = ix2 k d := funext fun a => Fin.ext (by
    match a with
    | ⟨0, _⟩ => exact (lhs0_0 _ _).trans hk
    | ⟨1, _⟩ => exact lhs0_1 _ _)
  have er : dot_S1024x256_S1024x256_S256x256_0_0_1_1_n_n.rhsIdx (ix2 d v) ((contrEquiv1 dot_S1024x256_S1024x256_S256x256_0_0_1_1_n_n 1024 rfl rfl).symm k) = ix2 k v := funext fun a => Fin.ext (by
    match a with
    | ⟨0, _⟩ => exact (rhs0_0 _ _).trans hk
    | ⟨1, _⟩ => exact rhs0_1 _ _)
  rw [el, er]

/-! ## The second body's product: rows of the left against columns of the right -/

theorem lhs1_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs1_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs1_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs1_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry (q, v) of lhs · rhs accumulated into zero is Σ d, lhs (q, d) · rhs (d, v). -/
theorem matmul1_apply (lhs : FVec Ideal S1024x256 .bf16) (rhs : FVec Ideal S256x256 .bf16) (q : Fin 1024) (v : Fin 256) :
    matmul dot_S1024x256_S256x256_S1024x256_1_0_0_1_n_n none lhs rhs (constant (F := Ideal) S1024x256 .f32 0x00000000#32) (ix2 q v)
      = ∑ d : Fin 256, lhs (ix2 q d) * rhs (ix2 d v) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 q v) ((contrEquiv1 dot_S1024x256_S256x256_S1024x256_1_0_0_1_n_n 256 rfl rfl).symm k) = ix2 q k := funext fun a => Fin.ext (by
    match a with
    | ⟨0, _⟩ => exact lhs1_0 _ _
    | ⟨1, _⟩ => exact (lhs1_1 _ _).trans hk)
  have er : dot_S1024x256_S256x256_S1024x256_1_0_0_1_n_n.rhsIdx (ix2 q v) ((contrEquiv1 dot_S1024x256_S256x256_S1024x256_1_0_0_1_n_n 256 rfl rfl).symm k) = ix2 k v := funext fun a => Fin.ext (by
    match a with
    | ⟨0, _⟩ => exact (rhs1_0 _ _).trans hk
    | ⟨1, _⟩ => exact rhs1_1 _ _)
  rw [el, er]

/-! ## The four stored values -/

/-- The value that clears the accumulator is zero everywhere. -/
theorem pay1_apply (j : S256x256.Idx) : k0_pay1 (F := Ideal) j = 0 :=
  (congrFun (shapeCast_self (broadcast S256x256 (Scalar.ofBits (F := Ideal) .f32 0x00000000#32))
    shapeCasts_S256x256_S256x256) j).trans Ideal.ofBits_zero_f32

/-- One block's step: the accumulator's entry (d, v) plus Σ r, φ(k[r, d]) · v[r, v] over the block's rows. -/
theorem pay2_apply (x0 x1 : Vec Ideal S1x1024x256 .f32) (acc : Vec Ideal S256x256 .f32) (d v : Fin 256) :
    k0_pay2 (F := Ideal) x0 x1 acc (ix2 d v)
      = acc (ix2 d v) + ∑ r : Fin 1024, feat (x0 (ix3 (0 : Fin 1) r d)) * x1 (ix3 (0 : Fin 1) r v) := by
  unfold k0_pay2
  refine (congrFun (shapeCast_self _ shapeCasts_S256x256_S256x256) (ix2 d v)).trans ?_
  refine (addf_apply _ _ _).trans ?_
  refine congrArg (acc (ix2 d v) + ·) ?_
  refine (matmul0_apply _ _ d v).trans ?_
  exact Finset.sum_congr rfl fun r _ => congrArg₂ (· * ·) (featBlock_apply x0 r d) (castBlock_apply x1 r v)

/-- The copy-out: the accumulator's entry (d, v) under the leading unit axis. -/
theorem pay3_apply (x : Vec Ideal S256x256 .f32) (d v : Fin 256) :
    k0_pay3 (F := Ideal) x (ix3 (0 : Fin 1) d v) = x (ix2 d v) :=
  shapeCast_ab_1ab_apply x shapeCasts_S256x256_S1x256x256 0 d v

/-- The second body's stored value: entry (q, v) is Σ d, φ(q[q, d]) · kv[d, v]. -/
theorem k1_pay1_apply (x0 : Vec Ideal S1x1024x256 .f32) (x1 : Vec Ideal S1x256x256 .f32) (q : Fin 1024) (v : Fin 256) :
    k1_pay1 (F := Ideal) x0 x1 (ix3 (0 : Fin 1) q v)
      = ∑ d : Fin 256, feat (x0 (ix3 (0 : Fin 1) q d)) * x1 (ix3 (0 : Fin 1) d v) := by
  unfold k1_pay1
  refine (shapeCast_ab_1ab_apply _ shapeCasts_S1024x256_S1x1024x256 0 q v).trans ?_
  refine (matmul1_apply _ _ q v).trans ?_
  exact Finset.sum_congr rfl fun d _ => congrArg₂ (· * ·) (featBlock_apply x0 q d) (castSummary_apply x1 d v)

end Cert.LinAttn.Pay

end
-- ==== Proof.SumSplit.lean ====
/-
  The sum over the 4096 positions taken in four consecutive blocks of 1024.

  Position s of a batch is 1024 · j + r with j the block (0 ≤ j < 4) and r the place inside the block (0 ≤ r < 1024);
  this is a bijection of the pairs (j, r) with the positions, so the key–value summary's sum over all positions is the
  sum over the blocks of the blocks' sums. `part … n` is the sum of the first n blocks: it starts at zero, gains one
  block's sum per step, and after four steps is the whole summary. Only commutativity and associativity of the
  addition of extended reals are used.
-/
import proofs.«120352_j20598663151742_1_alg».proof.Proof.Spec
import Mathlib.Algebra.BigOperators.Fin
import Mathlib.Algebra.BigOperators.Intervals
import Mathlib.Logic.Equiv.Fin.Basic
import Mathlib.Data.Fintype.BigOperators

noncomputable section

namespace Cert.LinAttn

open Idealize.ShloMosaic Idealize.ShloMosaic.ValueIdx
open scoped BigOperators

/-- The summary of batch `b` at (d, v), block by block: the outer sum runs over the four blocks, the inner one over
    the 1024 places of a block. -/
theorem kv_split (K V : Arr3) (b : Fin 8) (d v : Fin 256) :
    kv K V b d v = ∑ j : Fin 4, ∑ r : Fin 1024,
      feat (K (ix3 b ⟨1024 * j.val + r.val, by omega⟩ d)) * V (ix3 b ⟨1024 * j.val + r.val, by omega⟩ v) := by
  unfold kv
  rw [← Equiv.sum_comp (finProdFinEquiv (m := 4) (n := 1024))
    (fun s : Fin 4096 => feat (K (ix3 b s d)) * V (ix3 b s v)), Fintype.sum_prod_type]
  refine Finset.sum_congr rfl fun j _ => Finset.sum_congr rfl fun r _ => ?_
  have e : (finProdFinEquiv (j, r) : Fin 4096) = ⟨1024 * j.val + r.val, by omega⟩ :=
    Fin.ext (Nat.add_comm _ _)
  rw [e]

/-- The sum of the first `n` blocks of the summary of batch `b` at (d, v) (a block past the fourth counts as zero). -/
def part (K V : Arr3) (b : Fin 8) (n : Nat) (d v : Fin 256) : EReal :=
  ∑ j ∈ Finset.range n, (if h : j < 4 then ∑ r : Fin 1024,
    feat (K (ix3 b ⟨1024 * j + r.val, by omega⟩ d)) * V (ix3 b ⟨1024 * j + r.val, by omega⟩ v) else 0)

/-- No block yet: zero. -/
theorem part_zero (K V : Arr3) (b : Fin 8) (d v : Fin 256) : part K V b 0 d v = 0 :=
  Finset.sum_range_zero _

/-- One more block: the sum so far plus that block's sum. -/
theorem part_succ (K V : Arr3) (b : Fin 8) (d v : Fin 256) (n : Nat) (hn : n < 4) :
    part K V b (n + 1) d v = part K V b n d v + ∑ r : Fin 1024,
      feat (K (ix3 b ⟨1024 * n + r.val, by omega⟩ d)) * V (ix3 b ⟨1024 * n + r.val, by omega⟩ v) := by
  unfold part
  rw [Finset.sum_range_succ, dif_pos hn]

/-- All four blocks: the whole summary. -/
theorem part_four (K V : Arr3) (b : Fin 8) (d v : Fin 256) : part K V b 4 d v = kv K V b d v := by
  rw [kv_split]
  unfold part
  rw [Finset.sum_range]
  exact Finset.sum_congr rfl fun j _ => dif_pos j.isLt

end Cert.LinAttn

end
-- ==== Proof.Value.Accumulate.lean ====
/-
  The accumulator through a batch. After tile j of batch b the accumulator holds, at (d, v), the sum over the
  first j + 1 tiles of Σ_r φ(K[b, 1024·j' + r, d]) · V[b, 1024·j' + r, v]: at tile 0 the body adds the tile's product
  to the zero matrix, at a later tile to what the tile before left. By induction on the grid point; one step is
  the body's accumulating store read at (d, v), with the two blocks read where they sit in the key and value arrays.
-/
import proofs.«120352_j20598663151742_1_alg».proof.Proof.Value.CaseValues
import proofs.«120352_j20598663151742_1_alg».proof.Proof.Value.SummaryBlocks
import proofs.«120352_j20598663151742_1_alg».proof.Proof.PayloadValue
import proofs.«120352_j20598663151742_1_alg».proof.Proof.SumSplit

set_option maxRecDepth 16384

noncomputable section

namespace Cert.LinAttn.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.LinAttn
open scoped BigOperators

/-- ONE STEP, over blocks and an accumulator given as plain arrays: if the two blocks are tile j of batch b of the
    key and value arrays and the accumulator holds the first j tiles' partial sum at (d, v), the accumulating store's
    payload holds the first j + 1 tiles' partial sum there. -/
theorem step_apply (x0 x1 : Vec Ideal S1x1024x256 .f32) (acc : Vec Ideal S256x256 .f32) (K Vv : Arr3)
    (b : Fin 8) (j : ℕ) (hj : j < 4) (d v : Fin 256)
    (hx0 : ∀ r : Fin 1024, x0 (ix3 (0 : Fin 1) r d) = K (ix3 b ⟨1024 * j + r.val, by have := r.isLt; omega⟩ d))
    (hx1 : ∀ r : Fin 1024, x1 (ix3 (0 : Fin 1) r v) = Vv (ix3 b ⟨1024 * j + r.val, by have := r.isLt; omega⟩ v))
    (hacc : acc (ix2 d v) = part K Vv b j d v) :
    k0_pay2 (F := Ideal) x0 x1 acc (ix2 d v) = part K Vv b (j + 1) d v := by
  rw [Pay.pay2_apply, part_succ K Vv b d v j hj, hacc]
  refine congrArg (part K Vv b j d v + ·) (Finset.sum_congr rfl fun r _ => ?_)
  rw [hx0 r, hx1 r]

section
variable (V : (c : Dev nD) → (b : Ref sig .tc) → Buf (Elt Ideal) ((c : Thread nD τ).loc b))

/-- The two blocks at point t are tile t % 4 of batch t / 4. -/
theorem keyTile (c : Dev nD) (t : Fin cfg0.N) (b : Fin 8) (hb : b.val = t.val / 4) (j : ℕ) (hj : j = t.val % 4) (hj4 : j < 4)
    (d : Fin 256) (r : Fin 1024) :
    iblk0 V c 0 t (ix3 (0 : Fin 1) r d) = V c main_arg1 (ix3 b ⟨1024 * j + r.val, by have := r.isLt; omega⟩ d) :=
  keyBlock_apply V c t (ix3 (0 : Fin 1) r d) (ix3 b ⟨1024 * j + r.val, by have := r.isLt; omega⟩ d) hb
    (by show 1024 * j + r.val = 1024 * (t.val % 4) + r.val; rw [hj]) rfl
theorem valueTile (c : Dev nD) (t : Fin cfg0.N) (b : Fin 8) (hb : b.val = t.val / 4) (j : ℕ) (hj : j = t.val % 4) (hj4 : j < 4)
    (v : Fin 256) (r : Fin 1024) :
    iblk0 V c 1 t (ix3 (0 : Fin 1) r v) = V c main_arg2 (ix3 b ⟨1024 * j + r.val, by have := r.isLt; omega⟩ v) :=
  valueBlock_apply V c t (ix3 (0 : Fin 1) r v) (ix3 b ⟨1024 * j + r.val, by have := r.isLt; omega⟩ v) hb
    (by show 1024 * j + r.val = 1024 * (t.val % 4) + r.val; rw [hj]) rfl

/-- The accumulator after grid point n (batch n / 4, tile n % 4). -/
theorem acc_after (c : Dev nD) : ∀ (n : ℕ) (hn : n < cfg0.N) (b : Fin 8) (hb : b.val = n / 4) (d v : Fin 256),
    (outsAt0 (F := Ideal) V c n hn).2 (ix2 d v) = part (V c main_arg1) (V c main_arg2) b (n % 4 + 1) d v := by
  intro n
  induction n with
  | zero =>
    intro hn b hb d v
    rw [outsAt0]
    dsimp only
    rw [accFirst_eq]
    exact step_apply (iblk0 V c 0 ⟨0, hn⟩) (iblk0 V c 1 ⟨0, hn⟩) (k0_pay1 (F := Ideal)) (V c main_arg1) (V c main_arg2) b 0 (by decide) d v
      (fun r => keyTile V c ⟨0, hn⟩ b hb 0 rfl (by decide) d r)
      (fun r => valueTile V c ⟨0, hn⟩ b hb 0 rfl (by decide) v r)
      ((Pay.pay1_apply (ix2 d v)).trans (part_zero (V c main_arg1) (V c main_arg2) b d v).symm)
  | succ n ih =>
    intro hn b hb d v
    have hN : n + 1 < 32 := lt_of_lt_of_eq hn (show cfg0.N = 32 from N_0)
    rw [outsAt0]
    by_cases h0 : (n + 1) % 4 = 0
    · have h1 : ¬(n + 1) % 4 = 3 := by omega
      rw [dif_pos h0, dif_neg h1]
      dsimp only
      rw [accFirst_eq, h0]
      exact step_apply (iblk0 V c 0 ⟨n + 1, hn⟩) (iblk0 V c 1 ⟨n + 1, hn⟩) (k0_pay1 (F := Ideal)) (V c main_arg1) (V c main_arg2) b 0 (by decide) d v
        (fun r => keyTile V c ⟨n + 1, hn⟩ b hb 0 h0.symm (by decide) d r)
        (fun r => valueTile V c ⟨n + 1, hn⟩ b hb 0 h0.symm (by decide) v r)
        ((Pay.pay1_apply (ix2 d v)).trans (part_zero (V c main_arg1) (V c main_arg2) b d v).symm)
    · have hprev := ih (Nat.lt_of_succ_lt hn) b (by omega) d v
      have hm : n % 4 + 1 = (n + 1) % 4 := by omega
      rw [hm] at hprev
      by_cases h1 : (n + 1) % 4 = 3
      · rw [dif_neg h0, dif_pos h1]
        dsimp only
        rw [accLast_eq]
        exact step_apply (iblk0 V c 0 ⟨n + 1, hn⟩) (iblk0 V c 1 ⟨n + 1, hn⟩) _ (V c main_arg1) (V c main_arg2) b ((n + 1) % 4) (Nat.mod_lt _ (by decide)) d v
          (fun r => keyTile V c ⟨n + 1, hn⟩ b hb ((n + 1) % 4) rfl (Nat.mod_lt _ (by decide)) d r)
          (fun r => valueTile V c ⟨n + 1, hn⟩ b hb ((n + 1) % 4) rfl (Nat.mod_lt _ (by decide)) v r)
          hprev
      · rw [dif_neg h0, dif_neg h1]
        dsimp only
        rw [accMid_eq]
        exact step_apply (iblk0 V c 0 ⟨n + 1, hn⟩) (iblk0 V c 1 ⟨n + 1, hn⟩) _ (V c main_arg1) (V c main_arg2) b ((n + 1) % 4) (Nat.mod_lt _ (by decide)) d v
          (fun r => keyTile V c ⟨n + 1, hn⟩ b hb ((n + 1) % 4) rfl (Nat.mod_lt _ (by decide)) d r)
          (fun r => valueTile V c ⟨n + 1, hn⟩ b hb ((n + 1) % 4) rfl (Nat.mod_lt _ (by decide)) v r)
          hprev

end

end Cert.LinAttn.KernelValue

end
-- ==== Proof.Value.SummaryArray.lean ====
/-
  The summary array after the first region: entry (b, d, v) is Σ_s φ(K[b, s, d]) · V[b, s, v] over all 4096
  positions. The output window is written back only after a batch's last tile; what is written back then is the
  accumulator after four tiles — the four tiles' partial sums, which is the whole sum — re-laid with a leading unit
  axis; and the eight batches' blocks tile the array.
-/
import proofs.«120352_j20598663151742_1_alg».proof.Proof.Value.Accumulate

set_option maxRecDepth 16384

noncomputable section

namespace Cert.LinAttn.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.LinAttn
open scoped BigOperators

/-- The last tile's output block, over blocks and an accumulator given as plain arrays: entry (0, d, v) is the
    whole sum for (b, d, v), when the blocks are tile 3 of batch b and the accumulator holds three tiles' sums. -/
theorem lastBlock_apply (x0 x1 : Vec Ideal S1x1024x256 .f32) (acc : Vec Ideal S256x256 .f32) (K Vv : Arr3) (b : Fin 8)
    (hx0 : ∀ (r : Fin 1024) (d : Fin 256), x0 (ix3 (0 : Fin 1) r d) = K (ix3 b ⟨1024 * 3 + r.val, by have := r.isLt; omega⟩ d))
    (hx1 : ∀ (r : Fin 1024) (v : Fin 256), x1 (ix3 (0 : Fin 1) r v) = Vv (ix3 b ⟨1024 * 3 + r.val, by have := r.isLt; omega⟩ v))
    (hacc : ∀ d v : Fin 256, acc (ix2 d v) = part K Vv b 3 d v)
    (y : S1x256x256.Idx) (i : S8x256x256.Idx)
    (h0 : (i 0).val = b.val) (h1 : (i 1).val = (y 1).val) (h2 : (i 2).val = (y 2).val) :
    k0_pay3 (F := Ideal) (k0_pay2 (F := Ideal) x0 x1 acc) y = KV K Vv i := by
  obtain ⟨u, d, v, rfl⟩ : ∃ (u : Fin 1) (d v : Fin 256), y = ix3 u d v := ⟨y 0, y 1, y 2, eq_ix3 y⟩
  obtain rfl : u = 0 := Subsingleton.elim _ _
  obtain ⟨b', d', v', rfl⟩ : ∃ (b' : Fin 8) (d' v' : Fin 256), i = ix3 b' d' v' := ⟨i 0, i 1, i 2, eq_ix3 i⟩
  obtain rfl : b' = b := Fin.ext h0
  obtain rfl : d' = d := Fin.ext h1
  obtain rfl : v' = v := Fin.ext h2
  rw [Pay.pay3_apply, step_apply x0 x1 acc K Vv b' 3 (by decide) d' v' (fun r => hx0 r d') (fun r => hx1 r v') (hacc d' v'), part_four]
  rfl

section
variable (V : (c : Dev nD) → (b : Ref sig .tc) → Buf (Elt Ideal) ((c : Thread nD τ).loc b))

/-- What the body leaves in the output buffer at a batch's last point, as the body's arithmetic. -/
theorem lastPoint_after (c : Dev nD) (t : Fin cfg0.N) (h0 : ¬t.val % 4 = 0) (h1 : t.val % 4 = 3) :
    (dat0 (F := Ideal) V c).after 2 t
      = k0_pay3 (F := Ideal) (k0_pay2 (F := Ideal) (iblk0 V c 0 t) (iblk0 V c 1 t)
          (outsAt0 V c (t.val - 1) (Nat.lt_of_le_of_lt (Nat.sub_le _ _) t.isLt)).2) := by
  rw [after0_2, outsAt0_last V c t h0 h1]
  dsimp only
  rw [outLast_eq]

/-- What a batch's last point writes back is that batch's block of the summary. -/
theorem summary_flushed (c : Dev nD) (t : Fin cfg0.N) (hf : (cfg0.win 2).flush t = true) :
    (dat0 (F := Ideal) V c).flushed 2 t = ((cfg0.win 2).blk t).view.read (Elt Ideal) (KV (V c main_arg1) (V c main_arg2)) := by
  have h1 : t.val % 4 = 3 := (flush0_2 t).mp hf
  have h0 : ¬t.val % 4 = 0 := by omega
  have hN : t.val < 32 := lt_of_lt_of_eq t.isLt (show cfg0.N = 32 from N_0)
  have hb : t.val / 4 < 8 := by omega
  obtain ⟨-, -, -, -, -, -, e0, e1, e2⟩ := blockIdx0 t
  have hx0 : ∀ (r : Fin 1024) (d : Fin 256), iblk0 V c 0 t (ix3 (0 : Fin 1) r d)
      = V c main_arg1 (ix3 (⟨t.val / 4, hb⟩ : Fin 8) ⟨1024 * 3 + r.val, by have := r.isLt; omega⟩ d) :=
    fun r d => keyTile V c t ⟨t.val / 4, hb⟩ rfl 3 h1.symm (by decide) d r
  have hx1 : ∀ (r : Fin 1024) (v : Fin 256), iblk0 V c 1 t (ix3 (0 : Fin 1) r v)
      = V c main_arg2 (ix3 (⟨t.val / 4, hb⟩ : Fin 8) ⟨1024 * 3 + r.val, by have := r.isLt; omega⟩ v) :=
    fun r v => valueTile V c t ⟨t.val / 4, hb⟩ rfl 3 h1.symm (by decide) v r
  have hacc : ∀ d v : Fin 256, (outsAt0 V c (t.val - 1) (Nat.lt_of_le_of_lt (Nat.sub_le _ _) t.isLt)).2 (ix2 d v)
      = part (V c main_arg1) (V c main_arg2) (⟨t.val / 4, hb⟩ : Fin 8) 3 d v := fun d v => by
    have h := acc_after V c (t.val - 1) (Nat.lt_of_le_of_lt (Nat.sub_le _ _) t.isLt) ⟨t.val / 4, hb⟩ (by show t.val / 4 = (t.val - 1) / 4; omega) d v
    rw [show (t.val - 1) % 4 + 1 = 3 by omega] at h
    exact h
  show (cfg0.win 2).cut (grid0.coords t) ((dat0 V c).after 2 t) = _
  rw [lastPoint_after V c t h0 h1]
  funext j
  refine lastBlock_apply (iblk0 V c 0 t) (iblk0 V c 1 t) (outsAt0 V c (t.val - 1) (Nat.lt_of_le_of_lt (Nat.sub_le _ _) t.isLt)).2
    (V c main_arg1) (V c main_arg2) ⟨t.val / 4, hb⟩ hx0 hx1 hacc j (((cfg0.win 2).blk t).view.emb j) ?_ ?_ ?_
  · show win0_2.index t (0 : Fin 3) * 1 + 1 * (j 0).val = t.val / 4
    have hj : (j 0).val < 1 := (j 0).isLt
    omega
  · show win0_2.index t (1 : Fin 3) * 256 + 1 * (j 1).val = (j 1).val
    omega
  · show win0_2.index t (2 : Fin 3) * 256 + 1 * (j 2).val = (j 2).val
    omega

/-- An index of the summary array is in point t's block iff each coordinate is in the block's range. -/
theorem mem_summaryBlock (t : Fin cfg0.N) (i : S8x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0).slice (win0_2.rect t)).set ↔ _
  rw [View.set_slice_whole, Rect.mem_set_unit]
  exact Iff.rfl

/-- Every index of the summary array is in the block some batch's last point writes back. -/
theorem summary_cover (i : S8x256x256.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  let t : Fin cfg0.N := ⟨4 * (i 0).val + 3, by rw [show cfg0.N = 32 from N_0]; omega⟩
  have ht : t.val = 4 * (i 0).val + 3 := rfl
  obtain ⟨-, -, -, -, -, -, e0, e1, e2⟩ := blockIdx0 t
  refine ⟨t, (flush0_2 t).mpr (by omega), ?_⟩
  rw [mem_summaryBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE SUMMARY ARRAY after the first region. -/
theorem summary_array (c : Dev nD) :
    (dat0 (F := Ideal) V c).arrAt 2 cfg0.N = KV (V c main_arg1) (V c main_arg2) :=
  (dat0 (F := Ideal) V c).arrAt_eq_of_cover 2 _ (fun t hf => summary_flushed V c t hf) (summary_cover)

end

end Cert.LinAttn.KernelValue

end
-- ==== Proof.Value.OutArray.lean ====
/-
  The output region's result array, index by index.

  The region's grid is 8 batches × 4 tiles of 1024 query rows; point t = 4 · batch + tile. At point t the body reads
  the query block (batch, tile) — rows 1024 · tile … 1024 · tile + 1023 of the batch — and the batch's whole 256 × 256
  summary, and writes back the block (batch, tile) of the result: entry (r, v) of that block is
  Σ d, φ(q[r, d]) · s[d, v]. So each written block is the restriction, to the block's rectangle, of ONE function of the
  two arrays as the region finds them,

      (b, q, v)  ↦  Σ d, φ(A[b, q, d]) · S[b, d, v] ,

  and since the 32 blocks tile the [8, 4096, 256] array (index (b, q, v) lies in the block of point 4 · b + q / 1024)
  the array ends holding that function.
-/
import proofs.«120352_j20598663151742_1_alg».proof.Proof.KI.OutRegion
import proofs.«120352_j20598663151742_1_alg».proof.Proof.PayloadValue
import proofs.«120352_j20598663151742_1_alg».proof.Proof.Spec
import Idealize.ShloMosaic.Lib.Pipeline.Value

noncomputable section

namespace Cert.LinAttn.KernelValue

open Cert.KernelIdeal Cert.KernelIdeal.Gen Cert.KernelIdeal.Hand Idealize.ShloMosaic Idealize.ShloMosaic.ValueIdx
open Idealize.ShloMosaic.TcCoe Idealize.SL.Sem Cert.LinAttn
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl

/-- Entry (b, q, v) of φ(A) against S, batch by batch: Σ d, φ(A[b, q, d]) · S[b, d, v]. -/
def outOf (A : S8x4096x256.Idx → EReal) (S : S8x256x256.Idx → EReal) : S8x4096x256.Idx → EReal :=
  fun i => ∑ d : Fin 256, feat (A (ix3 (i 0) (i 1) d)) * S (ix3 (i 0) d (i 2))

/-- The three windows' block indices at point t: the query's and the result's blocks are (t / 4, t % 4, 0), the
    summary's is (t / 4, 0, 0). Decided over the 32 points. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- The query block at point t, at y, is the query array at (t / 4, 1024 · (t % 4) + y₁, y₂). -/
theorem qblock_apply (c : Dev nD) (t : Fin cfg1.N) (y : S1x1024x256.Idx) (i : S8x4096x256.Idx)
    (h0 : (i 0).val = t.val / 4) (h1 : (i 1).val = 1024 * (t.val % 4) + (y 1).val) (h2 : (i 2).val = (y 2).val) :
    (iblk1 V c 0 t : Vec Ideal S1x1024x256 .f32) y = (V c main_arg0 : S8x4096x256.Idx → EReal) i := by
  obtain ⟨e0, e1, e2, -⟩ := idx_facts t
  have hy0 : (y 0).val < 1 := (y 0).isLt
  unfold iblk1
  rw [View.read_apply]
  show V c main_arg0 (((cfg1.win 0).blk t).view.emb y) = V c main_arg0 i
  congr 1
  funext a
  apply Fin.ext
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 256 + 1 * (y 2).val = (i 2).val; omega

/-- The summary block at point t, at y, is the summary array at (t / 4, y₁, y₂). -/
theorem sblock_apply (c : Dev nD) (t : Fin cfg1.N) (y : S1x256x256.Idx) (i : S8x256x256.Idx)
    (h0 : (i 0).val = t.val / 4) (h1 : (i 1).val = (y 1).val) (h2 : (i 2).val = (y 2).val) :
    (iblk1 V c 1 t : Vec Ideal S1x256x256 .f32) y = (V c main_v0 : S8x256x256.Idx → EReal) i := by
  obtain ⟨-, -, -, e0, e1, e2, -⟩ := idx_facts t
  have hy0 : (y 0).val < 1 := (y 0).isLt
  unfold iblk1
  rw [View.read_apply]
  show V c main_v0 (((cfg1.win 1).blk t).view.emb y) = V c main_v0 i
  congr 1
  funext a
  apply Fin.ext
  match a with
  | ⟨0, _⟩ => show win1_1.index t (0 : Fin 3) * 1 + 1 * (y 0).val = (i 0).val; omega
  | ⟨1, _⟩ => show win1_1.index t (1 : Fin 3) * 256 + 1 * (y 1).val = (i 1).val; omega
  | ⟨2, _⟩ => show win1_1.index t (2 : Fin 3) * 256 + 1 * (y 2).val = (i 2).val; omega

/-- Where the result block's element y sits in the result array at point t: (t / 4, 1024 · (t % 4) + y₁, y₂). -/
theorem oblock_emb (t : Fin cfg1.N) (y : S1x1024x256.Idx) :
    ((((cfg1.win 2).blk t).view.emb y : S8x4096x256.Idx) 0).val = t.val / 4
    ∧ ((((cfg1.win 2).blk t).view.emb y : S8x4096x256.Idx) 1).val = 1024 * (t.val % 4) + (y 1).val
    ∧ ((((cfg1.win 2).blk t).view.emb y : S8x4096x256.Idx) 2).val = (y 2).val := by
  obtain ⟨-, -, -, -, -, -, e0, e1, e2⟩ := idx_facts t
  have hy0 : (y 0).val < 1 := (y 0).isLt
  refine ⟨?_, ?_, ?_⟩
  · show win1_2.index t (0 : Fin 3) * 1 + 1 * (y 0).val = _; omega
  · show win1_2.index t (1 : Fin 3) * 1024 + 1 * (y 1).val = _; omega
  · show win1_2.index t (2 : Fin 3) * 256 + 1 * (y 2).val = _; omega

/-- The body's stored value at point t, at y, is the function at the place of y in the array. -/
theorem point_eq (c : Dev nD) (t : Fin cfg1.N) (y : S1x1024x256.Idx) :
    k1_pay1 (F := Ideal) (iblk1 V c 0 t) (iblk1 V c 1 t) y
      = outOf (V c main_arg0) (V c main_v0) (((cfg1.win 2).blk t).view.emb y) := by
  obtain ⟨h0, h1, h2⟩ := oblock_emb t y
  obtain ⟨u, r, v, rfl⟩ : ∃ (u : Fin 1) (r : Fin 1024) (v : Fin 256), y = ix3 u r v := ⟨y 0, y 1, y 2, eq_ix3 y⟩
  obtain rfl : u = 0 := Subsingleton.elim _ _
  refine (Pay.k1_pay1_apply _ _ r v).trans ?_
  unfold outOf
  refine Finset.sum_congr rfl fun d _ => ?_
  exact congrArg₂ (· * ·)
    (congrArg feat (qblock_apply V c t (ix3 (0 : Fin 1) r d) _ h0 h1 rfl))
    (sblock_apply V c t (ix3 (0 : Fin 1) d v) _ h0 rfl h2)

/-- What point t writes back is block t of the function of the two arrays as the region finds them. -/
theorem flushed_eq (c : Dev nD) (t : Fin cfg1.N) :
    (dat1 (F := Ideal) V c).flushed 2 t
      = ((cfg1.win 2).blk t).view.read (Elt Ideal) (outOf (V c main_arg0) (V c main_v0)) := by
  show (cfg1.win 2).cut (grid1.coords t) ((dat1 V c).after 2 t) = _
  rw [after1_2]
  unfold outBlock
  rw [View.canon_unit_zero hz3]
  simp only [View.ld_unit_zero (S := S1x1024x256) hz3, View.ld_unit_zero (S := S1x256x256) hz3]
  funext j
  exact point_eq V c t j

/-- An index of the result array is in point t's block iff each coordinate is in the block's range on its axis. -/
theorem mem_blk (t : Fin cfg1.N) (i : S8x4096x256.Idx) :
    i ∈ ((cfg1.win 2).blk t).view.set ↔ ∀ a : Fin 3, win1_2.index t a * S1x1024x256.size a ≤ (i a).val
      ∧ (i a).val < win1_2.index t a * S1x1024x256.size a + S1x1024x256.size a := by
  show i ∈ ((View.whole main_v1).slice (win1_2.rect t)).set ↔ _
  rw [View.set_slice_whole, Rect.mem_set_unit]
  exact Iff.rfl

/-- Every index (b, q, v) is in the block of the point 4 · b + q / 1024, which writes back. -/
theorem cover (i : S8x4096x256.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 256 := (i 2).isLt
  have hN : cfg1.N = 32 := N_1
  obtain ⟨t, ht⟩ : ∃ t : Fin cfg1.N, t.val = 4 * (i 0).val + (i 1).val / 1024 :=
    ⟨⟨4 * (i 0).val + (i 1).val / 1024, by rw [hN]; omega⟩, rfl⟩
  refine ⟨t, flush1_2 t, ?_⟩
  rw [mem_blk]
  obtain ⟨-, -, -, -, -, -, e0, e1, e2⟩ := idx_facts t
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1024 ≤ (i 1).val ∧ (i 1).val < win1_2.index t (1 : Fin 3) * 1024 + 1024
    omega
  | ⟨2, _⟩ =>
    show win1_2.index t (2 : Fin 3) * 256 ≤ (i 2).val ∧ (i 2).val < win1_2.index t (2 : Fin 3) * 256 + 256
    omega

/-- The result array after the region: at (b, q, v), Σ d, φ(Q[b, q, d]) · summary[b, d, v], of the query and summary
    arrays as the region finds them. -/
theorem out_array (c : Dev nD) :
    (dat1 (F := Ideal) V c).arrAt 2 cfg1.N
      = fun i => ∑ d : Fin 256, feat (V c main_arg0 (ix3 (i 0) (i 1) d)) * V c main_v0 (ix3 (i 0) d (i 2)) :=
  (dat1 (F := Ideal) V c).arrAt_eq_of_cover 2 (outOf (V c main_arg0) (V c main_v0))
    (fun t _ => flushed_eq V c t) cover

end Cert.LinAttn.KernelValue

end
-- ==== Proof.Value.Result.lean ====
/-
  The result array after the whole program: out b q v = Σ_d φ(Q[b, q, d]) · (Σ_s φ(K[b, s, d]) · V[b, s, v]) of the
  launch contents. The second region computes, per output block, φ(Q-block) times the summary array as it finds it;
  it finds the query array as launched (the first region does not touch it) and the summary array as the first
  region left it, which is the key–value summary of the launch contents.
-/
import proofs.«120352_j20598663151742_1_alg».proof.Proof.KI.TwoRegions
import proofs.«120352_j20598663151742_1_alg».proof.Proof.Value.SummaryArray
import proofs.«120352_j20598663151742_1_alg».proof.Proof.Value.OutArray

set_option maxRecDepth 16384

noncomputable section

namespace Cert.LinAttn.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.LinAttn
open scoped BigOperators

variable (m : (ℓ : Loc nD τ sig) → Buf (Elt Ideal) ℓ) (ρ : Dev nD → PrngReg)

/-- Entering the second region the query array is as launched. -/
theorem queries_kept (c : Dev nD) : Vb m ρ c main_arg0 = m ((c : Thread nD τ).loc main_arg0) :=
  Wb_of_ne m ρ c main_arg0 (by decide)

/-- Entering the second region the summary array is the key–value summary of the launch contents. -/
theorem summary_found (c : Dev nD) :
    Vb m ρ c main_v0 = KV (m ((c : Thread nD τ).loc main_arg1)) (m ((c : Thread nD τ).loc main_arg2)) :=
  (Wb_arr m ρ c 2).trans (summary_array (Va m ρ) c)

/-- THE RESULT ARRAY after the run is the specification's function of the three launch arrays. -/
theorem result_eq (c : Dev nD) :
    (dat1 (F := Ideal) (Vb m ρ) c).arrAt 2 cfg1.N
      = G (m ((c : Thread nD τ).loc main_arg0)) (m ((c : Thread nD τ).loc main_arg1)) (m ((c : Thread nD τ).loc main_arg2)) := by
  rw [out_array (Vb m ρ) c, queries_kept, summary_found]
  rfl

end Cert.LinAttn.KernelValue

end
-- ==== Proof.RefRead.lean ====
/-
  The reference's run and its stages read at an index: the generated modules, gathered under one import.
-/
import proofs.«120352_j20598663151742_1_alg».proof.Proof.Gen.ReferenceIdeal.Run
import proofs.«120352_j20598663151742_1_alg».proof.Proof.Gen.ReferenceIdeal.Read
-- ==== Proof.RefValue.lean ====
/-
  The reference program computes the specification's function.

  Stage by stage: the reference takes max(x, 0) + ε of the first two arguments elementwise (φ of each element),
  contracts φ(K) with V over the 4096 positions of each batch (the key–value summary), and contracts φ(Q) with that
  summary over the 256 features. Read at an index over the extended reals each contraction is its plain sum, so the
  result at (b, q, v) is Σ d, φ(Q[b, q, d]) · Σ s, φ(K[b, s, d]) · V[b, s, v]: the specification's `out`.
-/
import proofs.«120352_j20598663151742_1_alg».proof.Proof.RefRead
import proofs.«120352_j20598663151742_1_alg».proof.Proof.Spec

noncomputable section

namespace Cert.LinAttn.Ref

open Cert.ReferenceIdeal Cert.ReferenceIdeal.Read Idealize.ShloMosaic Idealize.ShloMosaic.ValueIdx Cert.LinAttn
open scoped BigOperators

/-- The reference's max-with-zero-plus-ε stage on its first argument is φ of the element. -/
theorem v2_apply (Q : Arr3) (i : S8x4096x256.Idx) : val_main_v2 (F := Ideal) Q i = feat (Q i) := by
  rw [val_main_v2_apply, val_main_v0_apply, val_main_call0_v0_apply, val_main_call0_cst_apply, val_main_v1_apply,
    val_main_cst_apply]
  show max (Q i) (Ideal.ofBits .f32 0x00000000#32) + Ideal.ofBits .f32 0x358637BD#32 = _
  rw [Ideal.ofBits_zero_f32]
  rfl

/-- The same stage on the second argument. -/
theorem v5_apply (K : Arr3) (i : S8x4096x256.Idx) : val_main_v5 (F := Ideal) K i = feat (K i) := by
  rw [val_main_v5_apply, val_main_v3_apply, val_main_call1_v0_apply, val_main_call1_cst_apply, val_main_v4_apply,
    val_main_cst_0_apply]
  show max (K i) (Ideal.ofBits .f32 0x00000000#32) + Ideal.ofBits .f32 0x358637BD#32 = _
  rw [Ideal.ofBits_zero_f32]
  rfl

/-- The first contraction, read at (b, d, v), is the key–value summary there. -/
theorem v6_eq (K V : Arr3) (b : Fin 8) (d v : Fin 256) :
    val_main_v6 (F := Ideal) K V (ix3 b d v) = kv K V b d v := by
  rw [val_main_v6_apply]
  unfold kv
  refine Finset.sum_congr rfl fun s _ => ?_
  have e1 : lidx_main_v6 (ix3 b d v) s = ix3 b s d := funext fun a => Fin.ext (by
    match a with | ⟨0, _⟩ => rfl | ⟨1, _⟩ => rfl | ⟨2, _⟩ => rfl)
  have e2 : ridx_main_v6 (ix3 b d v) s = ix3 b s v := funext fun a => Fin.ext (by
    match a with | ⟨0, _⟩ => rfl | ⟨1, _⟩ => rfl | ⟨2, _⟩ => rfl)
  rw [e1, e2, v5_apply]

/-- The reference's result is the specification's array. -/
theorem ref_eq (Q K V : Arr3) : Cert.ReferenceIdeal.Read.val_main_v7 (F := Ideal) Q K V = G Q K V := by
  funext i
  obtain ⟨b, q, v, rfl⟩ : ∃ (b : Fin 8) (q : Fin 4096) (v : Fin 256), i = ix3 b q v := ⟨i 0, i 1, i 2, eq_ix3 i⟩
  show _ = out Q K V b q v
  rw [val_main_v7_apply]
  unfold out
  refine Finset.sum_congr rfl fun d _ => ?_
  have e1 : lidx_main_v7 (ix3 b q v) d = ix3 b q d := funext fun a => Fin.ext (by
    match a with | ⟨0, _⟩ => rfl | ⟨1, _⟩ => rfl | ⟨2, _⟩ => rfl)
  have e2 : ridx_main_v7 (ix3 b q v) d = ix3 b d v := funext fun a => Fin.ext (by
    match a with | ⟨0, _⟩ => rfl | ⟨1, _⟩ => rfl | ⟨2, _⟩ => rfl)
  rw [e1, e2, v2_apply, v6_eq]

end Cert.LinAttn.Ref

end
-- ==== Proof.lean ====
/-
  Linear attention with the feature map φ(x) = max(x, 0) + ε, computed by two kernels — per batch the 256 × 256
  summary Σ_s φ(K[s, ·])ᵀ V[s, ·], accumulated over four tiles of 1024 positions; then, per block of 1024 queries,
  φ(Q-block) times that summary — against the reference's two contractions over whole arrays.

  At the extended reals both programs compute, at every index (b, q, v),

      Σ_d φ(Q[b, q, d]) · Σ_s φ(K[b, s, d]) · V[b, s, v].

  The kernel's changes of float format are the identity there, its matrix products into a zero accumulator are the
  plain sums, and the only law joining the two sides is that a sum over 4096 positions is the sum of its four
  tiles' sums (commutativity and associativity of +: no finiteness is used). The reference's side is its generated
  run read one operation at a time; the kernel's side is read off its frame run: the accumulator followed through
  the grid points of a batch, each output block one function of the arrays the region finds, the blocks tiling their
  arrays. The frame of each printed program (it runs to the end, faults nowhere, leaves its arguments unchanged) is
  the two regions' body obligations — the first region's invariant naming the accumulator's contents between
  points — composed by the library's launch of a program of several regions.
-/
import proofs.«120352_j20598663151742_1_alg».proof.Defs
import proofs.«120352_j20598663151742_1_alg».proof.Proof.Gen.Kernel
import proofs.«120352_j20598663151742_1_alg».proof.Proof.Gen.KernelIdeal
import proofs.«120352_j20598663151742_1_alg».proof.Proof.Gen.ReferenceIdeal
import proofs.«120352_j20598663151742_1_alg».proof.Proof.Gen.Pre_finite_inputs
import proofs.«120352_j20598663151742_1_alg».proof.Proof.K.TwoRegions
import proofs.«120352_j20598663151742_1_alg».proof.Proof.KI.TwoRegions
import proofs.«120352_j20598663151742_1_alg».proof.Proof.Value.Result
import proofs.«120352_j20598663151742_1_alg».proof.Proof.RefValue

noncomputable section

namespace Cert.Proof

open Idealize.ShloMosaic Idealize.ShloMosaic.TcCoe Idealize.SL.Sem

/-- The word-level program runs and leaves its arguments unchanged. -/
theorem frame_kernel [Cert.Kernel.Facts] [Cert.Pre_finite_inputs.Facts] : Cert.frame_Kernel :=
  fun m ρ _ => Cert.Kernel.Hand.frame (F := Bits) m ρ

/-- So does its reading at the extended reals. -/
theorem frame_kernelIdeal [Cert.KernelIdeal.Facts] [Cert.Pre_finite_inputs.Facts] : Cert.frame_KernelIdeal :=
  fun m ρ _ => Cert.KernelIdeal.Hand.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the specification's function of the launch arrays in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.LinAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.LinAttn.KernelValue.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.LinAttn.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
